-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S4 : Shape := ⟨1, ![4]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S4x4096x256 .f32) (main_arg1 : FVec F S256x256 .f32) (main_arg2 : FVec F S256x256 .f32) (main_arg3 : FVec F S256x256 .f32) (main_arg4 : IVec S4 32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S4x4096x256 : Shape := ⟨3, ![4, 4096, 256]⟩
abbrev S256x256 : Shape := ⟨2, ![256, 256]⟩
abbrev S4 : Shape := ⟨1, ![4]⟩
abbrev S1x4096x256 : Shape := ⟨3, ![1, 4096, 256]⟩
abbrev S4096x256 : Shape := ⟨2, ![4096, 256]⟩
abbrev S4096x1 : Shape := ⟨2, ![4096, 1]⟩
abbrev S1x512x256 : Shape := ⟨3, ![1, 512, 256]⟩
abbrev S512x256 : Shape := ⟨2, ![512, 256]⟩
abbrev S4096x512 : Shape := ⟨2, ![4096, 512]⟩
abbrev S4096 : Shape := ⟨1, ![4096]⟩

abbrev nBuf : Space → Nat
  | .hbm => 7
  | .vmem => 11
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S4, .i32⟩
  | .hbm, ⟨5, _⟩ => ⟨S256x256, .bf16⟩
  | .hbm, ⟨6, _⟩ => ⟨S4x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S256x256, .f32⟩
  | .local _ .vmem, ⟨3, _⟩ => ⟨S256x256, .f32⟩
  | .local _ .vmem, ⟨4, _⟩ => ⟨S256x256, .bf16⟩
  | .local _ .vmem, ⟨5, _⟩ => ⟨S1x4096x256, .f32⟩
  | .local _ .vmem, ⟨6, _⟩ => ⟨S1x4096x256, .f32⟩
  | .local _ .vmem, ⟨7, _⟩ => ⟨S4096x256, .f32⟩
  | .local _ .vmem, ⟨8, _⟩ => ⟨S4096x1, .f32⟩
  | .local _ .vmem, ⟨9, _⟩ => ⟨S4096x1, .f32⟩
  | .local _ .vmem, ⟨10, _⟩ => ⟨S4096x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def k0_cond2 (i : grid0.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_26 : BitVec 32 := 0#32
  let v50 : BitVec 1 := Scalar.cmpi .ne v49 c0_i32_26
  v50

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S256x256_S256x256_0_0 : ∀ a, (![0, 0] : Fin 2 → Nat) a + S256x256.size a ≤ S256x256.size a
  h_S256x256 : 0 < S256x256.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  h_S1x512x256 : 0 < S1x512x256.numel
  shapeCasts_S1x512x256_S512x256 : S1x512x256.ShapeCasts S512x256
  shapeCasts_S256x256_S256x256 : S256x256.ShapeCasts S256x256
  reduces_S4096x512_S4096 : S4096x512.Reduces [1] S4096
  shapeCasts_S4096_S4096x1 : S4096.ShapeCasts S4096x1
  broadcasts_S4096x1_S4096x512 : S4096x1.Broadcasts S4096x512
  broadcasts_S4096x1_S4096x256 : S4096x1.Broadcasts S4096x256
  shapeCasts_S4096x256_S1x4096x256 : S4096x256.ShapeCasts S1x4096x256
  dot_S4096x256_S256x256_S4096x256_1_0_0_1_n_n_wf : DotDims.WF S4096x256 S256x256 S4096x256 [1] [0] [0] [1] [] []
  dot_S512x256_S256x256_S512x256_1_0_0_1_n_n_wf : DotDims.WF S512x256 S256x256 S512x256 [1] [0] [0] [1] [] []
  dot_S4096x256_S512x256_S4096x512_1_1_0_0_n_n_wf : DotDims.WF S4096x256 S512x256 S4096x512 [1] [1] [0] [0] [] []
  dot_S4096x512_S512x256_S4096x256_1_0_0_1_n_n_wf : DotDims.WF S4096x512 S512x256 S4096x256 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x256.size a ≤ S1x4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x256.size a
  hwx0_0 : ∀ i : grid0.Coords, EltTy.bits .f32 = 32 ∨ (Rect.block (s := S4x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x256.size a ≤ S4x4096x256.size a
  hwx0_4 : ∀ i : grid0.Coords, EltTy.bits .f32 = 32 ∨ (Rect.block (s := S4x4096x256) S1x4096x256.size (cc0_transform_4 i) (hinb0_4 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S4096x256_S512x256_S4096x512_1_1_0_0_n_n : DotDims S4096x256 S512x256 S4096x512 where
  lhsContracting := [1]
  rhsContracting := [1]
  lhsNonContracting := [0]
  rhsNonContracting := [0]
  lhsBatch := []
  rhsBatch := []
  wf := dot_S4096x256_S512x256_S4096x512_1_1_0_0_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S256x256 : Shape := ⟨2, ![256, 256]⟩
abbrev S4 : Shape := ⟨1, ![4]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S4, .i32⟩
  | .hbm, ⟨5, _⟩ => ⟨S4x4096x256, .f32⟩
  | .hbm, ⟨6, _⟩ => ⟨S4x4096x256, .f32⟩
  | .hbm, ⟨7, _⟩ => ⟨S4x4096x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096, .f32⟩
  | .hbm, ⟨17, _⟩ => ⟨S_, .f32⟩
  | .hbm, ⟨18, _⟩ => ⟨S4x4096, .f32⟩
  | .hbm, ⟨19, _⟩ => ⟨S4x4096, .f32⟩
  | .hbm, ⟨20, _⟩ => ⟨S4x4096x1, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S4x4096x4096, .f32⟩
  | .hbm, ⟨28, _⟩ => ⟨S4x4096x4096, .f32⟩
  | .hbm, ⟨29, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x256_S4x4096x256_2_0_01_1_n_n_wf : DotDims.WF S4x4096x256 S256x256 S4x4096x256 [2] [0] [0, 1] [1] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_0_01_1_n_n : DotDims S4x4096x256 S256x256 S4x4096x256 where
  lhsContracting := [2]
  rhsContracting := [0]
  lhsNonContracting := [0, 1]
  rhsNonContracting := [1]
  lhsBatch := []
  rhsBatch := []
  wf := dot_S4x4096x256_S256x256_S4x4096x256_2_0_01_1_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.Softmax.lean ====
/-
  Softmax-weighted means over the reals.

  For scores `s k` and values `v k` over a finite set of keys, the softmax-weighted mean is
  `(∑ exp (s k) · v k) / (∑ exp (s k))`.  Three facts about it:

  * subtracting one real `μ` from every score changes neither numerator-over-denominator (`shift_invariant`);
  * a sum of weights `exp (s k - μ)` is turned into the sum of weights `exp (s k - μ')` by the one factor
    `exp (μ - μ')` (`rescale_sum`): this is what lets the keys be consumed tile by tile under a running shift;
  * normalising each weight first and summing afterwards is the same quotient (`normalized_sum`).
-/
import Mathlib.Analysis.SpecialFunctions.Exp
import Mathlib.Algebra.BigOperators.Field

namespace Cert.Attention

open Finset

variable {ι : Type}

/-- One factor `exp (μ - μ')` moves every weight of a sum from the shift `μ` to the shift `μ'`. -/
theorem rescale_sum (S : Finset ι) (s v : ι → ℝ) (μ μ' : ℝ) :
    Real.exp (μ - μ') * ∑ k ∈ S, Real.exp (s k - μ) * v k = ∑ k ∈ S, Real.exp (s k - μ') * v k := by
  rw [Finset.mul_sum]
  refine Finset.sum_congr rfl fun k _ => ?_
  rw [← mul_assoc, ← Real.exp_add]
  congr 2
  ring

/-- The same with all values one: the sums of the weights themselves. -/
theorem rescale_sum_one (S : Finset ι) (s : ι → ℝ) (μ μ' : ℝ) :
    Real.exp (μ - μ') * ∑ k ∈ S, Real.exp (s k - μ) = ∑ k ∈ S, Real.exp (s k - μ') := by
  have h := rescale_sum S s (fun _ => (1 : ℝ)) μ μ'
  simpa only [mul_one] using h

/-- The weighted mean does not depend on the shift. -/
theorem shift_invariant (S : Finset ι) (s v : ι → ℝ) (μ : ℝ) :
    (∑ k ∈ S, Real.exp (s k - μ) * v k) / (∑ k ∈ S, Real.exp (s k - μ))
      = (∑ k ∈ S, Real.exp (s k) * v k) / (∑ k ∈ S, Real.exp (s k)) := by
  have h1 := rescale_sum S s v 0 μ
  have h2 := rescale_sum_one S s 0 μ
  simp only [sub_zero] at h1 h2
  rw [← h1, ← h2]
  exact mul_div_mul_left _ _ (Real.exp_pos _).ne'

/-- Normalising each weight by the total and then summing is the quotient of the two sums. -/
theorem normalized_sum (S : Finset ι) (s v : ι → ℝ) (μ : ℝ) :
    ∑ k ∈ S, (Real.exp (s k - μ) / ∑ j ∈ S, Real.exp (s j - μ)) * v k
      = (∑ k ∈ S, Real.exp (s k - μ) * v k) / (∑ j ∈ S, Real.exp (s j - μ)) := by
  rw [Finset.sum_div]
  exact Finset.sum_congr rfl fun k _ => div_mul_eq_mul_div _ _ _

end Cert.Attention
-- ==== Proof.Spec.lean ====
/-
  Single-head attention over the reals, for one batch element.

  `X` is the `[n, 256]` input of the batch element, `Wq`, `Wk`, `Wv` the `[256, 256]` projection weights.
  Queries, keys and values are the rows of `X` times a weight matrix (`proj`); the score of query row `r` against
  key row `k` is their inner product over the 256 features, scaled by `1/16 = 1/√256` (`score`); the output at
  `(r, d)` is the softmax-weighted mean over the keys of the values' feature `d` (`attend`), written without any
  shift of the scores: `(∑ₖ exp (s k) · v k) / (∑ₖ exp (s k))`.  Any way of computing it that subtracts one real
  from all scores of a row first gives the same number (`Cert.Attention.shift_invariant`).
-/
import proofs.«125697_j82205674045992_2_alg».proof.Proof.Softmax

noncomputable section

namespace Cert.Attention

/-- Rows of `X` times a weight matrix: entry `(r, d)` is `∑ₕ X r h · W h d`. -/
def proj {n : ℕ} (X : Fin n → Fin 256 → ℝ) (W : Fin 256 → Fin 256 → ℝ) (r : Fin n) (d : Fin 256) : ℝ :=
  ∑ h : Fin 256, X r h * W h d

/-- The scaled score of query row `r` against key row `k`. -/
def score {n n' : ℕ} (Q : Fin n → Fin 256 → ℝ) (K : Fin n' → Fin 256 → ℝ) (r : Fin n) (k : Fin n') : ℝ :=
  (∑ d : Fin 256, Q r d * K k d) * (1 / 16)

/-- The softmax-weighted mean of `v` under the scores `s`, with no shift. -/
def attend {n : ℕ} (s v : Fin n → ℝ) : ℝ :=
  (∑ k : Fin n, Real.exp (s k) * v k) / (∑ k : Fin n, Real.exp (s k))

/-- Attention of one batch element at query row `r`, feature `d`. -/
def attention (X : Fin 4096 → Fin 256 → ℝ) (Wq Wk Wv : Fin 256 → Fin 256 → ℝ) (r : Fin 4096) (d : Fin 256) : ℝ :=
  attend (score (proj X Wq) (proj X Wk) r) (fun k => proj X Wv k d)

end Cert.Attention

end
-- ==== Proof.Consts.lean ====
/-
  The float literals the two programs spell, as the extended reals their bit patterns denote.
-/
import Idealize.ShloMosaic.PureOps.Ideal

noncomputable section

namespace Cert.Attention.Consts

open Idealize.ShloMosaic

/-- `0.0625`, the kernel's score scale, denotes the real `1/16`. -/
theorem ofBits_sixteenth : Ideal.ofBits .f32 0x3D800000#32 = ((1 / 16 : ℝ) : EReal) := by
  simp [Ideal.ofBits, Ideal.ieee, -EReal.coe_mul]; norm_num

/-- `256.0`, whose square root the reference divides by, denotes the real `256`. -/
theorem ofBits_256 : Ideal.ofBits .f32 0x43800000#32 = ((256 : ℝ) : EReal) := by
  simp [Ideal.ofBits, Ideal.ieee, -EReal.coe_mul]; norm_num

/-- `1.0` denotes the real `1`. -/
theorem ofBits_one : Ideal.ofBits .f32 0x3F800000#32 = ((1 : ℝ) : EReal) := by
  simp [Ideal.ofBits, Ideal.ieee, -EReal.coe_mul]; norm_num

/-- The pattern of minus infinity denotes the bottom of the extended reals. -/
theorem ofBits_neg_inf : Ideal.ofBits .f32 0xFF800000#32 = ⊥ := by
  simp [Ideal.ofBits, Ideal.ieee]

/-- A pattern whose exponent field is not all ones denotes a real number (a zero, a subnormal or a normal). -/
theorem ieee_real (e m : Nat) {w : Nat} (b : BitVec w) (h : (b.extractLsb' m e).toNat ≠ 2 ^ e - 1) :
    ∃ r : ℝ, Ideal.ieee e m b = (r : EReal) := by
  unfold Ideal.ieee
  simp only [h, if_false]
  split <;> exact ⟨_, rfl⟩

/-- The kernel's starting value of the running maximum, about `-2.38e38`, denotes a real number: its exponent
    field is 254, not 255. -/
theorem ofBits_seed_real : ∃ r : ℝ, Ideal.ofBits .f32 0xFF333332#32 = (r : EReal) :=
  ieee_real 8 23 (0xFF333332#32 : BitVec 32) (by decide)

end Cert.Attention.Consts

end
-- ==== Proof.ERealFacts.lean ====
/-
  Real numbers inside the extended reals: a finite sum of reals is the real sum, and a maximum of finitely many
  reals taken from a starting value below `+∞` is below `+∞`; a value strictly between the infinities is a real.
-/
import Mathlib.Data.EReal.Operations
import Mathlib.Algebra.BigOperators.Group.Finset.Basic
import Mathlib.Data.Finset.Fold

namespace Cert.Attention

variable {ι : Type}

/-- The sum of finitely many reals, taken in the extended reals, is the real sum. -/
theorem coe_sum (S : Finset ι) (f : ι → ℝ) : (∑ k ∈ S, (f k : EReal)) = ((∑ k ∈ S, f k : ℝ) : EReal) := by
  classical
  induction S using Finset.induction_on with
  | empty => simp
  | insert a S ha ih => rw [Finset.sum_insert ha, Finset.sum_insert ha, ih, EReal.coe_add]

/-- An extended real strictly between the two infinities is a real number. -/
theorem exists_real {x : EReal} (h1 : ⊥ < x) (h2 : x < ⊤) : ∃ r : ℝ, x = (r : EReal) :=
  ⟨x.toReal, (EReal.coe_toReal h2.ne h1.ne').symm⟩

/-- The maximum of finitely many reals, folded from a start below `+∞`, is below `+∞`. -/
theorem fold_max_lt_top (S : Finset ι) (b : EReal) (hb : b < ⊤) (f : ι → ℝ) :
    S.fold max b (fun k => (f k : EReal)) < ⊤ :=
  (Finset.fold_max_lt _).mpr ⟨hb, fun k _ => EReal.coe_lt_top (f k)⟩

/-- The maximum of a real with such a fold is a real. -/
theorem max_fold_real (S : Finset ι) (b : EReal) (hb : b < ⊤) (f : ι → ℝ) (μ : ℝ) :
    ∃ r : ℝ, max (μ : EReal) (S.fold max b (fun k => (f k : EReal))) = (r : EReal) :=
  exists_real (lt_max_of_lt_left (EReal.bot_lt_coe μ)) (max_lt (EReal.coe_lt_top μ) (fold_max_lt_top S b hb f))

/-- The maximum over a set that has a member, folded from any start below `+∞`, is a real. -/
theorem fold_max_real (S : Finset ι) (b : EReal) (hb : b < ⊤) (f : ι → ℝ) (k₀ : ι) (hk : k₀ ∈ S) :
    ∃ r : ℝ, S.fold max b (fun k => (f k : EReal)) = (r : EReal) :=
  exists_real ((Finset.lt_fold_max _).mpr (Or.inr ⟨k₀, hk, EReal.bot_lt_coe (f k₀)⟩)) (fold_max_lt_top S b hb f)

end Cert.Attention
-- ==== Proof.Reference.lean ====
/-
  The reference program read at the extended reals, index by index: with every input a real number, its result at
  `(b, r, d)` is single-head attention of batch element `b` at query row `r`, feature `d`.

  The program computes queries, keys and values as rows of the input times a weight matrix, the scores as inner
  products of a query row with a key row scaled by `1 / √256`, then a softmax over the keys the usual way
  (subtract the row's maximum, exponentiate, divide by the row's sum), and at last the weighted sum of the values.
  Each stage below is read at explicit coordinates as the coercion of a real formula; the last step removes the
  shift by the maximum, which does not change a softmax-weighted mean.
-/
import proofs.«125697_j82205674045992_2_alg».proof.Proof.Gen.ReferenceIdeal.Read
import proofs.«125697_j82205674045992_2_alg».proof.Proof.Spec
import proofs.«125697_j82205674045992_2_alg».proof.Proof.Consts
import proofs.«125697_j82205674045992_2_alg».proof.Proof.ERealFacts
import Idealize.ShloMosaic.PureOps.Reduce

noncomputable section

namespace Cert.Attention.Ref

open Idealize.ShloMosaic Idealize.ShloMosaic.ValueIdx Cert.ReferenceIdeal

/-- A projection stage at `(b, r, d)`: row `r` of batch element `b` times column `d` of the weight matrix. -/
theorem proj_apply
    (x0 : (⟨S4x4096x256, .f32⟩ : BufTy).Contents (Elt Ideal)) (w : (⟨S256x256, .f32⟩ : BufTy).Contents (Elt Ideal))
    (X : Fin 4 → Fin 4096 → Fin 256 → ℝ) (W : Fin 256 → Fin 256 → ℝ)
    (hx : ∀ (b : Fin 4) (r : Fin 4096) (h : Fin 256), x0 (ix3 b r h) = ((X b r h : ℝ) : EReal))
    (hw : ∀ h d : Fin 256, w (ix2 h d) = ((W h d : ℝ) : EReal))
    (b : Fin 4) (r : Fin 4096) (d : Fin 256) :
    Read.val_main_v0 (F := Ideal) x0 w (ix3 b r d) = ((proj (X b) W r d : ℝ) : EReal) := by
  rw [Read.val_main_v0_apply]
  have e : ∀ k : Fin 256, x0 (Read.lidx_main_v0 (ix3 b r d) k) * w (Read.ridx_main_v0 (ix3 b r d) k)
      = ((X b r k * W k d : ℝ) : EReal) := by
    intro k
    have el : Read.lidx_main_v0 (ix3 b r d) k = ix3 b r k := funext fun a => by
      match a with
      | ⟨0, _⟩ => rfl
      | ⟨1, _⟩ => rfl
      | ⟨2, _⟩ => rfl
    have er : Read.ridx_main_v0 (ix3 b r d) k = ix2 k d := funext fun a => by
      match a with
      | ⟨0, _⟩ => rfl
      | ⟨1, _⟩ => rfl
    rw [el, er, hx, hw, EReal.coe_mul]
  rw [Finset.sum_congr rfl (fun k _ => e k), coe_sum]
  rfl

/-- The scale the scores are multiplied by: `1 / √256 = 1 / 16`. -/
theorem scale_apply (i : S_.Idx) : Read.val_main_v4 (F := Ideal) i = (((1 : ℝ) / 16 : ℝ) : EReal) := by
  rw [Read.val_main_v4_apply, Read.val_main_v3_apply, Read.val_main_cst_apply, Read.val_main_cst_0_apply]
  simp only [Ideal.hostDivf_def, Ideal.hostUnary_sqrt_def, Ideal.ofBits_def, Consts.ofBits_256, Consts.ofBits_one,
    Ideal.sqrt_coe]
  have h16 : Real.sqrt 256 = 16 := by
    rw [show (256 : ℝ) = 16 ^ 2 by norm_num]
    exact Real.sqrt_sq (by norm_num)
  rw [if_neg (by norm_num), h16, Ideal.div_coe (by norm_num), ← EReal.coe_mul, one_mul]

/-- The scaled score of query row `r` against key row `k` in batch element `b`. -/
theorem score_apply
    (x0 : (⟨S4x4096x256, .f32⟩ : BufTy).Contents (Elt Ideal)) (x1 x2 : (⟨S256x256, .f32⟩ : BufTy).Contents (Elt Ideal))
    (X : Fin 4 → Fin 4096 → Fin 256 → ℝ) (Wq Wk : Fin 256 → Fin 256 → ℝ)
    (hx : ∀ (b : Fin 4) (r : Fin 4096) (h : Fin 256), x0 (ix3 b r h) = ((X b r h : ℝ) : EReal))
    (hq : ∀ h d : Fin 256, x1 (ix2 h d) = ((Wq h d : ℝ) : EReal))
    (hk : ∀ h d : Fin 256, x2 (ix2 h d) = ((Wk h d : ℝ) : EReal))
    (b : Fin 4) (r k : Fin 4096) :
    Read.val_main_v7 (F := Ideal) x0 x1 x2 (ix3 b r k)
      = ((score (proj (X b) Wq) (proj (X b) Wk) r k : ℝ) : EReal) := by
  rw [Read.val_main_v7_apply, Read.val_main_v6_apply, scale_apply, Read.val_main_v5_apply]
  have e : ∀ d : Fin 256,
      Read.val_main_v0 (F := Ideal) x0 x1 (Read.lidx_main_v5 (ix3 b r k) d)
        * Read.val_main_v1 (F := Ideal) x0 x2 (Read.ridx_main_v5 (ix3 b r k) d)
      = ((proj (X b) Wq r d * proj (X b) Wk k d : ℝ) : EReal) := by
    intro d
    have el : Read.lidx_main_v5 (ix3 b r k) d = ix3 b r d := funext fun a => by
      match a with
      | ⟨0, _⟩ => rfl
      | ⟨1, _⟩ => rfl
      | ⟨2, _⟩ => rfl
    have er : Read.ridx_main_v5 (ix3 b r k) d = ix3 b k d := funext fun a => by
      match a with
      | ⟨0, _⟩ => rfl
      | ⟨1, _⟩ => rfl
      | ⟨2, _⟩ => rfl
    rw [el, er, proj_apply x0 x1 X Wq hx hq b r d]
    have h1 : Read.val_main_v1 (F := Ideal) x0 x2 (ix3 b k d) = ((proj (X b) Wk k d : ℝ) : EReal) :=
      proj_apply x0 x2 X Wk hx hk b k d
    rw [h1, EReal.coe_mul]
  rw [Finset.sum_congr rfl (fun d _ => e d), coe_sum, Ideal.mulf_def, ← EReal.coe_mul]
  rfl

/-- The maximum over the keys of a row of scores, taken from `-∞`: the fold of `max` over the row. -/
theorem rowmax_apply
    (x0 : (⟨S4x4096x256, .f32⟩ : BufTy).Contents (Elt Ideal)) (x1 x2 : (⟨S256x256, .f32⟩ : BufTy).Contents (Elt Ideal))
    (X : Fin 4 → Fin 4096 → Fin 256 → ℝ) (Wq Wk : Fin 256 → Fin 256 → ℝ)
    (hx : ∀ (b : Fin 4) (r : Fin 4096) (h : Fin 256), x0 (ix3 b r h) = ((X b r h : ℝ) : EReal))
    (hq : ∀ h d : Fin 256, x1 (ix2 h d) = ((Wq h d : ℝ) : EReal))
    (hk : ∀ h d : Fin 256, x2 (ix2 h d) = ((Wk h d : ℝ) : EReal))
    (b : Fin 4) (r : Fin 4096) :
    Read.val_main_v8 (F := Ideal) x0 x1 x2 (ix2 b r)
      = (Finset.univ : Finset (Fin 4096)).fold max (⊥ : EReal)
          (fun k => ((score (proj (X b) Wq) (proj (X b) Wk) r k : ℝ) : EReal)) := by
  unfold Read.val_main_v8
  rw [Host.reduce_eq_fold_single FloatOps.maximumf _ _ Gen.reducesTo_S4x4096x4096_S4x4096_d2 (by decide) Gen.h_S_ (ix2 b r)]
  rw [Read.val_main_cst_1_apply, Ideal.ofBits_def, Consts.ofBits_neg_inf]
  refine Finset.fold_congr fun k _ => ?_
  show Read.val_main_v7 (F := Ideal) x0 x1 x2 _ = _
  rw [← score_apply x0 x1 x2 X Wq Wk hx hq hk b r k]
  exact congrArg _ (funext fun a => Fin.ext (by
    match a with
    | ⟨0, _⟩ => rfl
    | ⟨1, _⟩ => rfl
    | ⟨2, _⟩ => rfl))

/-- The shift the softmax subtracts, the larger of `-∞` and the row's maximum, is a real number: the row has a key. -/
theorem shift_real
    (x0 : (⟨S4x4096x256, .f32⟩ : BufTy).Contents (Elt Ideal)) (x1 x2 : (⟨S256x256, .f32⟩ : BufTy).Contents (Elt Ideal))
    (X : Fin 4 → Fin 4096 → Fin 256 → ℝ) (Wq Wk : Fin 256 → Fin 256 → ℝ)
    (hx : ∀ (b : Fin 4) (r : Fin 4096) (h : Fin 256), x0 (ix3 b r h) = ((X b r h : ℝ) : EReal))
    (hq : ∀ h d : Fin 256, x1 (ix2 h d) = ((Wq h d : ℝ) : EReal))
    (hk : ∀ h d : Fin 256, x2 (ix2 h d) = ((Wk h d : ℝ) : EReal))
    (b : Fin 4) (r : Fin 4096) :
    ∃ M : ℝ, Read.val_main_v10 (F := Ideal) x0 x1 x2 (ix2 b r) = (M : EReal) := by
  obtain ⟨M, hM⟩ := fold_max_real (Finset.univ : Finset (Fin 4096)) (⊥ : EReal) bot_lt_top
    (fun k => score (proj (X b) Wq) (proj (X b) Wk) r k) (0 : Fin 4096) (Finset.mem_univ _)
  refine ⟨M, ?_⟩
  rw [Read.val_main_v10_apply, Read.val_main_v9_apply, Read.val_main_cst_2_apply,
    rowmax_apply x0 x1 x2 X Wq Wk hx hq hk b r, hM, Ideal.maximumf_def, Ideal.ofBits_def, Consts.ofBits_neg_inf]
  exact max_eq_right bot_le

/-- The shift broadcast back over the keys reads, at `(b, r, k)`, the shift of row `(b, r)`. -/
theorem shift_bcast_apply
    (x0 : (⟨S4x4096x256, .f32⟩ : BufTy).Contents (Elt Ideal)) (x1 x2 : (⟨S256x256, .f32⟩ : BufTy).Contents (Elt Ideal))
    (b : Fin 4) (r k : Fin 4096) :
    Read.val_main_v12 (F := Ideal) x0 x1 x2 (ix3 b r k) = Read.val_main_v10 (F := Ideal) x0 x1 x2 (ix2 b r) := by
  rw [Read.val_main_v12_apply, Read.val_main_v11_apply]
  exact congrArg _ (funext fun a => by
    match a with
    | ⟨0, _⟩ => rfl
    | ⟨1, _⟩ => rfl)

/-- The unnormalised weight of key `k`: the exponential of its score less the shift. -/
theorem weight_apply
    (x0 : (⟨S4x4096x256, .f32⟩ : BufTy).Contents (Elt Ideal)) (x1 x2 : (⟨S256x256, .f32⟩ : BufTy).Contents (Elt Ideal))
    (X : Fin 4 → Fin 4096 → Fin 256 → ℝ) (Wq Wk : Fin 256 → Fin 256 → ℝ)
    (hx : ∀ (b : Fin 4) (r : Fin 4096) (h : Fin 256), x0 (ix3 b r h) = ((X b r h : ℝ) : EReal))
    (hq : ∀ h d : Fin 256, x1 (ix2 h d) = ((Wq h d : ℝ) : EReal))
    (hk : ∀ h d : Fin 256, x2 (ix2 h d) = ((Wk h d : ℝ) : EReal))
    (b : Fin 4) (r : Fin 4096) (M : ℝ) (hM : Read.val_main_v10 (F := Ideal) x0 x1 x2 (ix2 b r) = (M : EReal))
    (k : Fin 4096) :
    Read.val_main_v14 (F := Ideal) x0 x1 x2 (ix3 b r k)
      = ((Real.exp (score (proj (X b) Wq) (proj (X b) Wk) r k - M) : ℝ) : EReal) := by
  rw [Read.val_main_v14_apply, Read.val_main_v13_apply, shift_bcast_apply, hM,
    score_apply x0 x1 x2 X Wq Wk hx hq hk b r k, Ideal.subf_def, Ideal.hostUnary_exp_def, ← EReal.coe_sub,
    Ideal.exp_coe]

/-- The sum of a row's weights. -/
theorem total_apply
    (x0 : (⟨S4x4096x256, .f32⟩ : BufTy).Contents (Elt Ideal)) (x1 x2 : (⟨S256x256, .f32⟩ : BufTy).Contents (Elt Ideal))
    (X : Fin 4 → Fin 4096 → Fin 256 → ℝ) (Wq Wk : Fin 256 → Fin 256 → ℝ)
    (hx : ∀ (b : Fin 4) (r : Fin 4096) (h : Fin 256), x0 (ix3 b r h) = ((X b r h : ℝ) : EReal))
    (hq : ∀ h d : Fin 256, x1 (ix2 h d) = ((Wq h d : ℝ) : EReal))
    (hk : ∀ h d : Fin 256, x2 (ix2 h d) = ((Wk h d : ℝ) : EReal))
    (b : Fin 4) (r : Fin 4096) (M : ℝ) (hM : Read.val_main_v10 (F := Ideal) x0 x1 x2 (ix2 b r) = (M : EReal)) :
    Read.val_main_v15 (F := Ideal) x0 x1 x2 (ix2 b r)
      = ((∑ k : Fin 4096, Real.exp (score (proj (X b) Wq) (proj (X b) Wk) r k - M) : ℝ) : EReal) := by
  rw [Read.val_main_v15_apply, Read.val_main_cst_3_apply, Ideal.ofBits_def, Ideal.ofBits_zero_f32, zero_add]
  have e : ∀ k : Fin 4096, Read.val_main_v14 (F := Ideal) x0 x1 x2 (Read.idx_main_v15 (ix2 b r) k)
      = ((Real.exp (score (proj (X b) Wq) (proj (X b) Wk) r k - M) : ℝ) : EReal) := by
    intro k
    rw [← weight_apply x0 x1 x2 X Wq Wk hx hq hk b r M hM k]
    exact congrArg _ (funext fun a => by
      match a with
      | ⟨0, _⟩ => rfl
      | ⟨1, _⟩ => rfl
      | ⟨2, _⟩ => rfl)
  rw [Finset.sum_congr rfl (fun k _ => e k), coe_sum]

/-- The total broadcast back over the keys reads, at `(b, r, k)`, the total of row `(b, r)`. -/
theorem total_bcast_apply
    (x0 : (⟨S4x4096x256, .f32⟩ : BufTy).Contents (Elt Ideal)) (x1 x2 : (⟨S256x256, .f32⟩ : BufTy).Contents (Elt Ideal))
    (b : Fin 4) (r k : Fin 4096) :
    Read.val_main_v17 (F := Ideal) x0 x1 x2 (ix3 b r k) = Read.val_main_v15 (F := Ideal) x0 x1 x2 (ix2 b r) := by
  rw [Read.val_main_v17_apply, Read.val_main_v16_apply]
  exact congrArg _ (funext fun a => by
    match a with
    | ⟨0, _⟩ => rfl
    | ⟨1, _⟩ => rfl)

/-- The normalised weight of key `k`: its weight over the row's total, which is positive. -/
theorem softmax_apply
    (x0 : (⟨S4x4096x256, .f32⟩ : BufTy).Contents (Elt Ideal)) (x1 x2 : (⟨S256x256, .f32⟩ : BufTy).Contents (Elt Ideal))
    (X : Fin 4 → Fin 4096 → Fin 256 → ℝ) (Wq Wk : Fin 256 → Fin 256 → ℝ)
    (hx : ∀ (b : Fin 4) (r : Fin 4096) (h : Fin 256), x0 (ix3 b r h) = ((X b r h : ℝ) : EReal))
    (hq : ∀ h d : Fin 256, x1 (ix2 h d) = ((Wq h d : ℝ) : EReal))
    (hk : ∀ h d : Fin 256, x2 (ix2 h d) = ((Wk h d : ℝ) : EReal))
    (b : Fin 4) (r : Fin 4096) (M : ℝ) (hM : Read.val_main_v10 (F := Ideal) x0 x1 x2 (ix2 b r) = (M : EReal))
    (k : Fin 4096) :
    Read.val_main_v18 (F := Ideal) x0 x1 x2 (ix3 b r k)
      = ((Real.exp (score (proj (X b) Wq) (proj (X b) Wk) r k - M)
          / ∑ j : Fin 4096, Real.exp (score (proj (X b) Wq) (proj (X b) Wk) r j - M) : ℝ) : EReal) := by
  have hpos : (0 : ℝ) < ∑ j : Fin 4096, Real.exp (score (proj (X b) Wq) (proj (X b) Wk) r j - M) :=
    Finset.sum_pos (fun j _ => Real.exp_pos _) ⟨0, Finset.mem_univ _⟩
  rw [Read.val_main_v18_apply, total_bcast_apply, total_apply x0 x1 x2 X Wq Wk hx hq hk b r M hM,
    weight_apply x0 x1 x2 X Wq Wk hx hq hk b r M hM k, Ideal.hostDivf_def, Ideal.div_coe hpos.ne', ← EReal.coe_mul,
    ← div_eq_mul_one_div]

/-- The reference's result at `(b, r, d)` is attention of batch element `b` at query row `r`, feature `d`: the
    program's normalise-then-sum is the quotient of the two sums, and the shift by the row's maximum drops out. -/
theorem reference_eq
    (x0 : (⟨S4x4096x256, .f32⟩ : BufTy).Contents (Elt Ideal)) (x1 x2 x3 : (⟨S256x256, .f32⟩ : BufTy).Contents (Elt Ideal))
    (X : Fin 4 → Fin 4096 → Fin 256 → ℝ) (Wq Wk Wv : Fin 256 → Fin 256 → ℝ)
    (hx : ∀ (b : Fin 4) (r : Fin 4096) (h : Fin 256), x0 (ix3 b r h) = ((X b r h : ℝ) : EReal))
    (hq : ∀ h d : Fin 256, x1 (ix2 h d) = ((Wq h d : ℝ) : EReal))
    (hk : ∀ h d : Fin 256, x2 (ix2 h d) = ((Wk h d : ℝ) : EReal))
    (hv : ∀ h d : Fin 256, x3 (ix2 h d) = ((Wv h d : ℝ) : EReal))
    (b : Fin 4) (r : Fin 4096) (d : Fin 256) :
    Cert.ReferenceIdeal.Read.val_main_v19 (F := Ideal) x0 x1 x2 x3 (ix3 b r d)
      = ((Cert.Attention.attention (X b) Wq Wk Wv r d : ℝ) : EReal) := by
  obtain ⟨M, hM⟩ := shift_real x0 x1 x2 X Wq Wk hx hq hk b r
  rw [Read.val_main_v19_apply]
  have e : ∀ k : Fin 4096,
      Read.val_main_v18 (F := Ideal) x0 x1 x2 (Read.lidx_main_v19 (ix3 b r d) k)
        * Read.val_main_v2 (F := Ideal) x0 x3 (Read.ridx_main_v19 (ix3 b r d) k)
      = (((Real.exp (score (proj (X b) Wq) (proj (X b) Wk) r k - M)
            / ∑ j : Fin 4096, Real.exp (score (proj (X b) Wq) (proj (X b) Wk) r j - M))
          * proj (X b) Wv k d : ℝ) : EReal) := by
    intro k
    have el : Read.lidx_main_v19 (ix3 b r d) k = ix3 b r k := funext fun a => by
      match a with
      | ⟨0, _⟩ => rfl
      | ⟨1, _⟩ => rfl
      | ⟨2, _⟩ => rfl
    have er : Read.ridx_main_v19 (ix3 b r d) k = ix3 b k d := funext fun a => by
      match a with
      | ⟨0, _⟩ => rfl
      | ⟨1, _⟩ => rfl
      | ⟨2, _⟩ => rfl
    have h2 : Read.val_main_v2 (F := Ideal) x0 x3 (ix3 b k d) = ((proj (X b) Wv k d : ℝ) : EReal) :=
      proj_apply x0 x3 X Wv hx hv b k d
    rw [el, er, softmax_apply x0 x1 x2 X Wq Wk hx hq hk b r M hM k, h2, EReal.coe_mul]
  rw [Finset.sum_congr rfl (fun k _ => e k), coe_sum]
  refine congrArg _ ?_
  rw [normalized_sum Finset.univ (score (proj (X b) Wq) (proj (X b) Wk) r) (fun k => proj (X b) Wv k d) M,
    shift_invariant Finset.univ (score (proj (X b) Wq) (proj (X b) Wk) r) (fun k => proj (X b) Wv k d) M]
  rfl

end Cert.Attention.Ref

end
-- ==== Proof.Finite.lean ====
/-
  From the precondition to real numbers.  The precondition says that four arrays pass `all (|x| < +∞)`; read at the
  extended reals, an entry whose absolute value is below `+∞` is neither infinity, hence a real number.
-/
import proofs.«125697_j82205674045992_2_alg».proof.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Attention.Finite

open Idealize.ShloMosaic Idealize.ShloMosaic.ValueIdx

/-- The scalar shape has one index. -/
instance : Subsingleton (⟨0, ![]⟩ : Shape).Idx := ⟨fun a b => funext fun d => d.elim0⟩

/-- The pattern of plus infinity denotes the top of the extended reals. -/
theorem ofBits_inf : Ideal.ofBits .f32 0x7F800000#32 = ⊤ := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec
  · simp at h
  · exact ⟨_, rfl⟩
  · simp at h

/-- An array that passes `all (|x| < +∞)` has a real number at every index. -/
theorem all_real {s : Shape} {axes : List (Fin s.rank)} (x : FVec Ideal s .f32)
    (dims : Fin (⟨0, ![]⟩ : Shape).rank → Fin s.rank) (hb : (⟨0, ![]⟩ : Shape).BroadcastsInDim s dims)
    (hr : s.ReducesTo axes (⟨0, ![]⟩ : Shape)) (hu : 0 < (⟨0, ![]⟩ : Shape).numel)
    (e : Host.reduce IntOp.andi
          (cmpf .olt (Host.absf x) (broadcastInDim s dims hb (constant (⟨0, ![]⟩ : Shape) .f32 0x7F800000#32)))
          (constantI (⟨0, ![]⟩ : Shape) 1 1#1) hr hu ix0 = 1#1)
    (i : s.Idx) : ∃ r : ℝ, x i = (r : EReal) := by
  have h1 := Host.reduce_andi_all _ _ hr hu ix0 e i
  have h2 : broadcastInDim s dims hb (constant (F := Ideal) (⟨0, ![]⟩ : Shape) .f32 0x7F800000#32) i = ⊤ :=
    (broadcastInDim_apply dims hb _ i ix0 (fun a => a.elim0)).trans ofBits_inf
  have h3 : Ideal.cmp .olt (max (x i) (-(x i))) ⊤ = 1#1 := by
    rw [← h2]
    exact h1
  refine real_of_abs_lt_top (x i) ?_
  by_contra hn
  simp [Ideal.cmp, hn] at h3

/-- Under the precondition every entry of the four float arrays is a real number. -/
theorem reals_of_pre [Cert.Pre_finite_inputs.Facts]
    (a0 : FVec Ideal Cert.Pre_finite_inputs.S4x4096x256 .f32)
    (a1 a2 a3 : FVec Ideal Cert.Pre_finite_inputs.S256x256 .f32)
    (a4 : IVec Cert.Pre_finite_inputs.S4 32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 : Cert.Pre_finite_inputs.fn (F := Ideal) a0 a1 a2 a3 a4 ix0 = 1#1 := congrFun h ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨all_real a0 _ _ _ _ e0, all_real a1 _ _ _ _ e1, all_real a2 _ _ _ _ e2, all_real a3 _ _ _ _ e3⟩

/-- The same with the witnesses named: every entry is the coercion of its own real part. -/
theorem toReal_of_pre [Cert.Pre_finite_inputs.Facts]
    (a0 : FVec Ideal Cert.Pre_finite_inputs.S4x4096x256 .f32)
    (a1 a2 a3 : FVec Ideal Cert.Pre_finite_inputs.S256x256 .f32)
    (a4 : IVec Cert.Pre_finite_inputs.S4 32)
    (h : Cert.Pre_finite_inputs.fn (F := Ideal) a0 a1 a2 a3 a4 = (fun _ => 1#1)) :
    (∀ i, a0 i = (((a0 i : EReal).toReal : ℝ) : EReal)) ∧ (∀ i, a1 i = (((a1 i : EReal).toReal : ℝ) : EReal))
      ∧ (∀ i, a2 i = (((a2 i : EReal).toReal : ℝ) : EReal)) ∧ (∀ i, a3 i = (((a3 i : EReal).toReal : ℝ) : EReal)) := by
  obtain ⟨r0, r1, r2, r3⟩ := reals_of_pre a0 a1 a2 a3 a4 h
  have key : ∀ x : EReal, (∃ r : ℝ, x = (r : EReal)) → x = ((x.toReal : ℝ) : EReal) := by
    rintro x ⟨r, rfl⟩
    rw [EReal.toReal_coe]
  exact ⟨fun i => key _ (r0 i), fun i => key _ (r1 i), fun i => key _ (r2 i), fun i => key _ (r3 i)⟩

end Cert.Attention.Finite

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.LibColumn.lean ====
/-
  A column broadcast over many columns, read at an index: an `[a, 1]` array broadcast to `[a, b]` reads, at
  `(p, c)`, the column's entry of row `p`.
-/
import Idealize.ShloMosaic.Lib.Pipeline.Value
import Idealize.ShloMosaic.Lib.ValueIdx

namespace Cert.LibColumn

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.LibMatmulNT.lean ====
/-
  A matrix product with the right operand contracted on its LAST axis, read at an index, on the extended reals.

  The product of an `[m, k]` matrix with an `[n, k]` matrix (the right operand transposed: `A · Bᵀ`), added into a
  zero accumulator, read at `(p, c)`, is the sum over `x` of the left matrix at `(p, x)` times the right matrix at
  `(c, x)`.  The dimension numbers enter only through the four facts that say which operand coordinate is the row,
  the column and the contracted one.
-/
import Idealize.ShloMosaic.Lib.Pipeline.Value
import Idealize.ShloMosaic.Lib.ValueIdx
import Idealize.ShloMosaic.PureOps.Ideal.Laws

noncomputable section

namespace Cert.LibMatmulNT

open Idealize.ShloMosaic Idealize.ShloMosaic.ValueIdx

/-- `A · Bᵀ` into a zero accumulator, read at `(p, c)`: the sum over the contracted coordinate `x` of the left
    operand at `(p, x)` times the right operand at `(c, x)`. -/
theorem matmul_nt_zero_apply {m k n : ℕ} {φ₁ φ₂ : FTy}
    (d : DotDims ⟨2, ![m, k]⟩ ⟨2, ![n, k]⟩ ⟨2, ![m, n]⟩) (prec : Option ContractPrecision)
    (lhs : FVec Ideal ⟨2, ![m, k]⟩ φ₁) (rhs : FVec Ideal ⟨2, ![n, k]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (j 1).val)
    (hr1 : ∀ (j : (⟨2, ![m, n]⟩ : Shape).Idx) (q : d.contr.Idx), (d.rhsIdx j q 1).val = (q ⟨0, by omega⟩).val)
    (p : Fin m) (c : Fin n) :
    FloatOps.matmul d prec lhs rhs (constant ⟨2, ![m, n]⟩ .f32 0x00000000#32) (ix2 p c)
      = ∑ x : Fin k, lhs (ix2 p x) * rhs (ix2 c x) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 c x := funext fun a => Fin.ext (by
    match a with
    | ⟨0, _⟩ => exact hr0 _ _
    | ⟨1, _⟩ => exact (hr1 _ _).trans hk)
  rw [el, er]

end Cert.LibMatmulNT

end
-- ==== Proof.LibRowMax.lean ====
/-
  The maximum of an `[a, b]` array along its second axis, read at an index, on the extended reals: at entry `p` it is
  the fold of `max`, from the accumulator's value, over the entries `(p, k)` of row `p`.
-/
import Idealize.ShloMosaic.Lib.Pipeline.Value
import Idealize.ShloMosaic.Lib.ValueIdx
import Idealize.ShloMosaic.PureOps.Ideal.Laws

noncomputable section

namespace Cert.LibRowMax

open Idealize.ShloMosaic Idealize.ShloMosaic.ValueIdx

/-- A maximum along the second axis of an `[a, b]` array, read at entry `p`: the fold of `max` over row `p`, from
    what the accumulator's pattern denotes. -/
theorem rowMax_apply {a b : ℕ} (src : FVec Ideal ⟨2, ![a, b]⟩ .f32) (acc : BitVec 32)
    (h : (⟨2, ![a, b]⟩ : Shape).Reduces [(1 : Fin 2)] ⟨1, ![a]⟩) (hφ : FKind.Formats .f32)
    (hacc : acc = FKind.maximumf.neutral .f32 hφ) (p : Fin a) :
    multiReduction .maximumf [(1 : Fin 2)] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (Finset.fold_congr fun k _ => congrArg src (funext fun c => Fin.ext (by
      match c with
      | ⟨0, _⟩ => rfl
      | ⟨1, _⟩ => rfl)))

end Cert.LibRowMax

end
-- ==== Proof.Payloads.lean ====
/-
  The body's arithmetic, read entry by entry on the extended reals.

  With `v6` the 512 input rows of the tile, `x2`, `x3` the key and value weights, `q` the projected queries and
  `m`, `l`, `a` the running maximum, sum and weighted sum:

  * a key of the tile is `keyT e d = ∑ₕ v6 (e, h) · x2 (h, d)`, a value `valT e d = ∑ₕ v6 (e, h) · x3 (h, d)`;
  * the scaled score of query row `r` against key `e` is `scoreT r e = (∑_d q (r, d) · keyT e d) · 0.0625`;
  * the new maximum is `max (m r) (max over e of scoreT r e, from -∞)`; the weights are `exp (scoreT r e - new m r)`,
    the correction `exp (m r - new m r)`; the new sum is correction · `l r` + the sum of the weights; the new
    weighted sum is correction · `a (r, d)` + `∑ₑ weight r e · valT e d`; the output is `a (r, d) / l r`.

  Changes of float format are the identity here, and a matrix product into a zero accumulator is the plain sum of
  products.
-/
import proofs.«125697_j82205674045992_2_alg».proof.Proof.Gen.KernelIdeal.Skeleton
import proofs.«125697_j82205674045992_2_alg».proof.Proof.LibRowOps
import proofs.«125697_j82205674045992_2_alg».proof.Proof.LibColumn
import proofs.«125697_j82205674045992_2_alg».proof.Proof.LibUnitColumn
import proofs.«125697_j82205674045992_2_alg».proof.Proof.LibMatmulNT
import proofs.«125697_j82205674045992_2_alg».proof.Proof.LibRowMax
import Idealize.ShloMosaic.Lib.ValueLayout
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payloads

open Cert.KernelIdeal Cert.KernelIdeal.Gen

/-! ## Which coordinate of each matrix product is the row, the column and the contracted one -/

theorem dq_l0 (j : S4096x256.Idx) (q : dot_S4096x256_S256x256_S4096x256_1_0_0_1_n_n.contr.Idx) : (dot_S4096x256_S256x256_S4096x256_1_0_0_1_n_n.lhsIdx j q 0).val = (j 0).val := by
  unfold DotDims.lhsIdx
  rw [dif_neg (show ¬(0 : Fin 2) ∈ dot_S4096x256_S256x256_S4096x256_1_0_0_1_n_n.lhsBatch by decide), dif_pos (show (0 : Fin 2) ∈ dot_S4096x256_S256x256_S4096x256_1_0_0_1_n_n.lhsNonContracting by decide)]
  rfl
theorem dq_l1 (j : S4096x256.Idx) (q : dot_S4096x256_S256x256_S4096x256_1_0_0_1_n_n.contr.Idx) : (dot_S4096x256_S256x256_S4096x256_1_0_0_1_n_n.lhsIdx j q 1).val = (q ⟨0, by decide⟩).val :=
  dot_S4096x256_S256x256_S4096x256_1_0_0_1_n_n.lhsIdx_val_of_single rfl j q
theorem dq_r0 (j : S4096x256.Idx) (q : dot_S4096x256_S256x256_S4096x256_1_0_0_1_n_n.contr.Idx) : (dot_S4096x256_S256x256_S4096x256_1_0_0_1_n_n.rhsIdx j q 0).val = (q ⟨0, by decide⟩).val :=
  dot_S4096x256_S256x256_S4096x256_1_0_0_1_n_n.rhsIdx_val_of_single rfl j q
theorem dq_r1 (j : S4096x256.Idx) (q : dot_S4096x256_S256x256_S4096x256_1_0_0_1_n_n.contr.Idx) : (dot_S4096x256_S256x256_S4096x256_1_0_0_1_n_n.rhsIdx j q 1).val = (j 1).val := by
  unfold DotDims.rhsIdx
  rw [dif_neg (show ¬(1 : Fin 2) ∈ dot_S4096x256_S256x256_S4096x256_1_0_0_1_n_n.rhsBatch by decide), dif_pos (show (1 : Fin 2) ∈ dot_S4096x256_S256x256_S4096x256_1_0_0_1_n_n.rhsNonContracting by decide)]
  rfl

theorem dk_l0 (j : S512x256.Idx) (q : dot_S512x256_S256x256_S512x256_1_0_0_1_n_n.contr.Idx) : (dot_S512x256_S256x256_S512x256_1_0_0_1_n_n.lhsIdx j q 0).val = (j 0).val := by
  unfold DotDims.lhsIdx
  rw [dif_neg (show ¬(0 : Fin 2) ∈ dot_S512x256_S256x256_S512x256_1_0_0_1_n_n.lhsBatch by decide), dif_pos (show (0 : Fin 2) ∈ dot_S512x256_S256x256_S512x256_1_0_0_1_n_n.lhsNonContracting by decide)]
  rfl
theorem dk_l1 (j : S512x256.Idx) (q : dot_S512x256_S256x256_S512x256_1_0_0_1_n_n.contr.Idx) : (dot_S512x256_S256x256_S512x256_1_0_0_1_n_n.lhsIdx j q 1).val = (q ⟨0, by decide⟩).val :=
  dot_S512x256_S256x256_S512x256_1_0_0_1_n_n.lhsIdx_val_of_single rfl j q
theorem dk_r0 (j : S512x256.Idx) (q : dot_S512x256_S256x256_S512x256_1_0_0_1_n_n.contr.Idx) : (dot_S512x256_S256x256_S512x256_1_0_0_1_n_n.rhsIdx j q 0).val = (q ⟨0, by decide⟩).val :=
  dot_S512x256_S256x256_S512x256_1_0_0_1_n_n.rhsIdx_val_of_single rfl j q
theorem dk_r1 (j : S512x256.Idx) (q : dot_S512x256_S256x256_S512x256_1_0_0_1_n_n.contr.Idx) : (dot_S512x256_S256x256_S512x256_1_0_0_1_n_n.rhsIdx j q 1).val = (j 1).val := by
  unfold DotDims.rhsIdx
  rw [dif_neg (show ¬(1 : Fin 2) ∈ dot_S512x256_S256x256_S512x256_1_0_0_1_n_n.rhsBatch by decide), dif_pos (show (1 : Fin 2) ∈ dot_S512x256_S256x256_S512x256_1_0_0_1_n_n.rhsNonContracting by decide)]
  rfl

theorem ds_l0 (j : S4096x512.Idx) (q : dot_S4096x256_S512x256_S4096x512_1_1_0_0_n_n.contr.Idx) : (dot_S4096x256_S512x256_S4096x512_1_1_0_0_n_n.lhsIdx j q 0).val = (j 0).val := by
  unfold DotDims.lhsIdx
  rw [dif_neg (show ¬(0 : Fin 2) ∈ dot_S4096x256_S512x256_S4096x512_1_1_0_0_n_n.lhsBatch by decide), dif_pos (show (0 : Fin 2) ∈ dot_S4096x256_S512x256_S4096x512_1_1_0_0_n_n.lhsNonContracting by decide)]
  rfl
theorem ds_l1 (j : S4096x512.Idx) (q : dot_S4096x256_S512x256_S4096x512_1_1_0_0_n_n.contr.Idx) : (dot_S4096x256_S512x256_S4096x512_1_1_0_0_n_n.lhsIdx j q 1).val = (q ⟨0, by decide⟩).val :=
  dot_S4096x256_S512x256_S4096x512_1_1_0_0_n_n.lhsIdx_val_of_single rfl j q
theorem ds_r0 (j : S4096x512.Idx) (q : dot_S4096x256_S512x256_S4096x512_1_1_0_0_n_n.contr.Idx) : (dot_S4096x256_S512x256_S4096x512_1_1_0_0_n_n.rhsIdx j q 0).val = (j 1).val := by
  unfold DotDims.rhsIdx
  rw [dif_neg (show ¬(0 : Fin 2) ∈ dot_S4096x256_S512x256_S4096x512_1_1_0_0_n_n.rhsBatch by decide), dif_pos (show (0 : Fin 2) ∈ dot_S4096x256_S512x256_S4096x512_1_1_0_0_n_n.rhsNonContracting by decide)]
  rfl
theorem ds_r1 (j : S4096x512.Idx) (q : dot_S4096x256_S512x256_S4096x512_1_1_0_0_n_n.contr.Idx) : (dot_S4096x256_S512x256_S4096x512_1_1_0_0_n_n.rhsIdx j q 1).val = (q ⟨0, by decide⟩).val :=
  dot_S4096x256_S512x256_S4096x512_1_1_0_0_n_n.rhsIdx_val_of_single rfl j q

theorem dp_l0 (j : S4096x256.Idx) (q : dot_S4096x512_S512x256_S4096x256_1_0_0_1_n_n.contr.Idx) : (dot_S4096x512_S512x256_S4096x256_1_0_0_1_n_n.lhsIdx j q 0).val = (j 0).val := by
  unfold DotDims.lhsIdx
  rw [dif_neg (show ¬(0 : Fin 2) ∈ dot_S4096x512_S512x256_S4096x256_1_0_0_1_n_n.lhsBatch by decide), dif_pos (show (0 : Fin 2) ∈ dot_S4096x512_S512x256_S4096x256_1_0_0_1_n_n.lhsNonContracting by decide)]
  rfl
theorem dp_l1 (j : S4096x256.Idx) (q : dot_S4096x512_S512x256_S4096x256_1_0_0_1_n_n.contr.Idx) : (dot_S4096x512_S512x256_S4096x256_1_0_0_1_n_n.lhsIdx j q 1).val = (q ⟨0, by decide⟩).val :=
  dot_S4096x512_S512x256_S4096x256_1_0_0_1_n_n.lhsIdx_val_of_single rfl j q
theorem dp_r0 (j : S4096x256.Idx) (q : dot_S4096x512_S512x256_S4096x256_1_0_0_1_n_n.contr.Idx) : (dot_S4096x512_S512x256_S4096x256_1_0_0_1_n_n.rhsIdx j q 0).val = (q ⟨0, by decide⟩).val :=
  dot_S4096x512_S512x256_S4096x256_1_0_0_1_n_n.rhsIdx_val_of_single rfl j q
theorem dp_r1 (j : S4096x256.Idx) (q : dot_S4096x512_S512x256_S4096x256_1_0_0_1_n_n.contr.Idx) : (dot_S4096x512_S512x256_S4096x256_1_0_0_1_n_n.rhsIdx j q 1).val = (j 1).val := by
  unfold DotDims.rhsIdx
  rw [dif_neg (show ¬(1 : Fin 2) ∈ dot_S4096x512_S512x256_S4096x256_1_0_0_1_n_n.rhsBatch by decide), dif_pos (show (1 : Fin 2) ∈ dot_S4096x512_S512x256_S4096x256_1_0_0_1_n_n.rhsNonContracting by decide)]
  rfl

/-! ## The tile's keys, values and scores -/

/-- A key of the tile: input row `e` of the tile times column `d` of the key weights. -/
def keyT (v6 : FVec Ideal S1x512x256 .f32) (x2 : FVec Ideal S256x256 .f32) (e : Fin 512) (d : Fin 256) : EReal :=
  ∑ h : Fin 256, v6 (ix3 (0 : Fin 1) e h) * x2 (ix2 h d)

/-- A value of the tile: input row `e` of the tile times column `d` of the value weights. -/
def valT (v6 : FVec Ideal S1x512x256 .f32) (x3 : FVec Ideal S256x256 .bf16) (e : Fin 512) (d : Fin 256) : EReal :=
  ∑ h : Fin 256, v6 (ix3 (0 : Fin 1) e h) * x3 (ix2 h d)

/-- The scaled score of query row `r` against key `e` of the tile. -/
def scoreT (v6 : FVec Ideal S1x512x256 .f32) (x2 : FVec Ideal S256x256 .f32) (q : FVec Ideal S4096x256 .f32)
    (r : Fin 4096) (e : Fin 512) : EReal :=
  (∑ d : Fin 256, q (ix2 r d) * keyT v6 x2 e d) * Ideal.ofBits .f32 0x3D800000#32

/-- The tile's rows as a `[512, 256]` matrix. -/
theorem pay9_apply (v6 : FVec Ideal S1x512x256 .f32) (e : Fin 512) (h : Fin 256) :
    k0_pay9 (F := Ideal) v6 (ix2 e h) = v6 (ix3 (0 : Fin 1) e h) := by
  unfold k0_pay9
  exact shapeCast_1ab_ab_apply v6 _ e h

/-- The key projection of the tile. -/
theorem keys_apply (v6 : FVec Ideal S1x512x256 .f32) (x2 : FVec Ideal S256x256 .f32) (e : Fin 512) (d : Fin 256) :
    matmul dot_S512x256_S256x256_S512x256_1_0_0_1_n_n (some .fp32) (k0_pay9 (F := Ideal) v6) x2 (constant S512x256 .f32 0x00000000#32) (ix2 e d) = keyT v6 x2 e d := by
  refine (Cert.LibRowOps.matmul_zero_apply dot_S512x256_S256x256_S512x256_1_0_0_1_n_n (some .fp32) (k0_pay9 (F := Ideal) v6) x2 rfl rfl dk_l0 dk_l1 dk_r0 dk_r1 e d).trans ?_
  exact Finset.sum_congr rfl fun h _ => by rw [pay9_apply]

/-- The scaled scores of the tile. -/
theorem pay11_apply (v6 : FVec Ideal S1x512x256 .f32) (x2 : FVec Ideal S256x256 .f32) (q : FVec Ideal S4096x256 .f32)
    (r : Fin 4096) (e : Fin 512) : k0_pay11 (F := Ideal) v6 x2 q (ix2 r e) = scoreT v6 x2 q r e := by
  unfold k0_pay11 scoreT
  refine (mulf_apply _ _ (ix2 r e)).trans ?_
  refine congrArg₂ (· * ·) ?_ rfl
  refine (Cert.LibMatmulNT.matmul_nt_zero_apply dot_S4096x256_S512x256_S4096x512_1_1_0_0_n_n (some .fp32) q _ rfl rfl ds_l0 ds_l1 ds_r0 ds_r1 r e).trans ?_
  exact Finset.sum_congr rfl fun d _ => by rw [keys_apply]

/-- The running maximum after the tile, at row `r`. -/
theorem pay12_apply (v6 : FVec Ideal S1x512x256 .f32) (x2 : FVec Ideal S256x256 .f32) (q : FVec Ideal S4096x256 .f32)
    (m : FVec Ideal S4096x1 .f32) (r : Fin 4096) :
    k0_pay12 (F := Ideal) v6 x2 q m (ix2 r (0 : Fin 1))
      = max (m (ix2 r (0 : Fin 1)))
          ((Finset.univ : Finset (Fin 512)).fold max (Ideal.ofBits .f32 0xFF800000#32) (fun e => scoreT v6 x2 q r e)) := by
  unfold k0_pay12
  refine (maximumf_apply _ _ (ix2 r (0 : Fin 1))).trans ?_
  refine congrArg₂ max rfl ?_
  refine (Cert.LibUnitColumn.shapeCast_a_a1_apply _ _ r (0 : Fin 1)).trans ?_
  refine (Cert.LibRowMax.rowMax_apply (k0_pay11 (F := Ideal) v6 x2 q) 0xFF800000#32 _ _ _ r).trans ?_
  exact Finset.fold_congr fun e _ => pay11_apply v6 x2 q r e

/-- The weights of the tile. -/
theorem pay13_apply (v6 : FVec Ideal S1x512x256 .f32) (x2 : FVec Ideal S256x256 .f32) (q : FVec Ideal S4096x256 .f32)
    (m : FVec Ideal S4096x1 .f32) (r : Fin 4096) (e : Fin 512) :
    k0_pay13 (F := Ideal) v6 x2 q m (ix2 r e) = Ideal.exp (scoreT v6 x2 q r e - k0_pay12 (F := Ideal) v6 x2 q m (ix2 r (0 : Fin 1))) := by
  unfold k0_pay13
  show Ideal.exp (k0_pay11 (F := Ideal) v6 x2 q (ix2 r e) - broadcastTo S4096x512 (k0_pay12 (F := Ideal) v6 x2 q m) _ (ix2 r e)) = _
  rw [pay11_apply, Cert.LibColumn.broadcastTo_a1_ab_apply]

/-- The correction factor of the tile. -/
theorem pay14_apply (v6 : FVec Ideal S1x512x256 .f32) (x2 : FVec Ideal S256x256 .f32) (q : FVec Ideal S4096x256 .f32)
    (m : FVec Ideal S4096x1 .f32) (r : Fin 4096) :
    k0_pay14 (F := Ideal) v6 x2 q m (ix2 r (0 : Fin 1))
      = Ideal.exp (m (ix2 r (0 : Fin 1)) - k0_pay12 (F := Ideal) v6 x2 q m (ix2 r (0 : Fin 1))) := rfl

/-- The running sum after the tile. -/
theorem pay15_apply (v6 : FVec Ideal S1x512x256 .f32) (x2 : FVec Ideal S256x256 .f32) (q : FVec Ideal S4096x256 .f32)
    (m l : FVec Ideal S4096x1 .f32) (r : Fin 4096) :
    k0_pay15 (F := Ideal) v6 x2 q m l (ix2 r (0 : Fin 1))
      = k0_pay14 (F := Ideal) v6 x2 q m (ix2 r (0 : Fin 1)) * l (ix2 r (0 : Fin 1))
        + ∑ e : Fin 512, k0_pay13 (F := Ideal) v6 x2 q m (ix2 r e) := by
  unfold k0_pay15
  refine (addf_apply _ _ (ix2 r (0 : Fin 1))).trans ?_
  refine congrArg₂ (· + ·) rfl ?_
  refine (Cert.LibUnitColumn.shapeCast_a_a1_apply _ _ r (0 : Fin 1)).trans ?_
  exact Cert.LibRowOps.rowSum_apply (k0_pay13 (F := Ideal) v6 x2 q m) _ _ _ r

/-- The value projection of the tile. -/
theorem pay10_apply (v6 : FVec Ideal S1x512x256 .f32) (x3 : FVec Ideal S256x256 .bf16) (e : Fin 512) (d : Fin 256) :
    k0_pay10 (F := Ideal) v6 x3 (ix2 e d) = valT v6 x3 e d := by
  unfold k0_pay10 valT
  show matmul dot_S512x256_S256x256_S512x256_1_0_0_1_n_n none (truncf .bf16 (k0_pay9 (F := Ideal) v6) _) (shapeCast S256x256 x3 _) (constant S512x256 .f32 0x00000000#32) (ix2 e d) = _
  rw [shapeCast_self]
  refine (Cert.LibRowOps.matmul_zero_apply dot_S512x256_S256x256_S512x256_1_0_0_1_n_n none _ x3 rfl rfl dk_l0 dk_l1 dk_r0 dk_r1 e d).trans ?_
  exact Finset.sum_congr rfl fun h _ => by rw [truncf_apply, pay9_apply]

/-- The running weighted sum after the tile. -/
theorem pay2_apply (v14 : FVec Ideal S512x256 .bf16) (v25 : FVec Ideal S4096x512 .f32) (v27 : FVec Ideal S4096x1 .f32)
    (v36 : FVec Ideal S4096x256 .f32) (r : Fin 4096) (d : Fin 256) :
    k0_pay2 (F := Ideal) v14 v25 v27 v36 (ix2 r d)
      = v27 (ix2 r (0 : Fin 1)) * v36 (ix2 r d) + ∑ e : Fin 512, v25 (ix2 r e) * v14 (ix2 e d) := by
  unfold k0_pay2
  rw [shapeCast_self]
  refine (addf_apply _ _ (ix2 r d)).trans ?_
  refine congrArg₂ (· + ·) ?_ ?_
  · refine (mulf_apply _ _ (ix2 r d)).trans ?_
    rw [Cert.LibColumn.broadcastTo_a1_ab_apply]
  · refine (Cert.LibRowOps.matmul_zero_apply dot_S4096x512_S512x256_S4096x256_1_0_0_1_n_n none _ v14 rfl rfl dp_l0 dp_l1 dp_r0 dp_r1 r d).trans ?_
    exact Finset.sum_congr rfl fun e _ => by rw [truncf_apply]

/-- The output block: the weighted sum over the sum. -/
theorem pay4_apply (v51 : FVec Ideal S4096x256 .f32) (v52 : FVec Ideal S4096x1 .f32) (r : Fin 4096) (d : Fin 256) :
    k0_pay4 (F := Ideal) v51 v52 (ix3 (0 : Fin 1) r d) = Ideal.div (v51 (ix2 r d)) (v52 (ix2 r (0 : Fin 1))) := by
  unfold k0_pay4
  refine (shapeCast_ab_1ab_apply _ _ (0 : Fin 1) r d).trans ?_
  refine (divf_apply _ _ (ix2 r d)).trans ?_
  rw [Cert.LibColumn.broadcastTo_a1_ab_apply]

/-- The query projection of the block. -/
theorem pay5_apply (x0 : FVec Ideal S1x4096x256 .f32) (x1 : FVec Ideal S256x256 .f32) (r : Fin 4096) (d : Fin 256) :
    k0_pay5 (F := Ideal) x0 x1 (ix2 r d) = ∑ h : Fin 256, x0 (ix3 (0 : Fin 1) r h) * x1 (ix2 h d) := by
  unfold k0_pay5
  rw [shapeCast_self]
  refine (Cert.LibRowOps.matmul_zero_apply dot_S4096x256_S256x256_S4096x256_1_0_0_1_n_n (some .fp32) _ x1 rfl rfl dq_l0 dq_l1 dq_r0 dq_r1 r d).trans ?_
  exact Finset.sum_congr rfl fun h _ => by rw [shapeCast_1ab_ab_apply]

/-- The starting maximum, zero sum and zero weighted sum. -/
theorem pay6_apply (j : S4096x1.Idx) : k0_pay6 (F := Ideal) j = Ideal.ofBits .f32 0xFF333332#32 := by
  unfold k0_pay6; rw [shapeCast_self]; rfl
theorem pay7_apply (j : S4096x1.Idx) : k0_pay7 (F := Ideal) j = 0 := by
  unfold k0_pay7; rw [shapeCast_self]; exact Ideal.ofBits_zero_f32
theorem pay8_apply (j : S4096x256.Idx) : k0_pay8 (F := Ideal) j = 0 := by
  unfold k0_pay8; rw [shapeCast_self]; exact Ideal.ofBits_zero_f32

/-- Two stores pass their value through a cast to the same shape. -/
theorem pay1_eq (v : FVec Ideal S4096x1 .f32) : k0_pay1 (F := Ideal) v = v := by
  unfold k0_pay1; exact shapeCast_self _ _
theorem pay3_eq (v : FVec Ideal S4096x1 .f32) : k0_pay3 (F := Ideal) v = v := by
  unfold k0_pay3; exact shapeCast_self _ _

end Cert.KernelIdeal.Payloads

end
-- ==== Proof.Tiles.lean ====
/-
  Keys consumed tile by tile.

  The 4096 keys are cut into 8 tiles of 512: key `e` of tile `j` is key number `512·j + e` (`key`).  A sum over the
  first `n` tiles, with weights `exp (s - μ)`, is updated to the first `n + 1` tiles under a new shift `μ'` by
  multiplying with `exp (μ - μ')` and adding tile `n`'s terms (`tile_update`); and the sum over all 8 tiles is the sum
  over all keys (`sum_tiles`).
-/
import proofs.«125697_j82205674045992_2_alg».proof.Proof.Softmax
import Mathlib.Algebra.BigOperators.Fin

namespace Cert.Attention

open Finset

/-- Key `e` of tile `j`. -/
def key (j : ℕ) (e : Fin 512) : Fin 4096 := ⟨(512 * j + e.val) % 4096, Nat.mod_lt _ (by norm_num)⟩

theorem key_val (j : ℕ) (hj : j < 8) (e : Fin 512) : (key j e).val = 512 * j + e.val := by
  have := e.isLt
  show (512 * j + e.val) % 4096 = _
  exact Nat.mod_eq_of_lt (by omega)

/-- One more tile: rescale what the first `n` tiles gave and add tile `n`'s terms. -/
theorem tile_update (n : ℕ) (s v : ℕ → Fin 512 → ℝ) (μ μ' : ℝ) :
    Real.exp (μ - μ') * (∑ j ∈ range n, ∑ e : Fin 512, Real.exp (s j e - μ) * v j e)
        + ∑ e : Fin 512, Real.exp (s n e - μ') * v n e
      = ∑ j ∈ range (n + 1), ∑ e : Fin 512, Real.exp (s j e - μ') * v j e := by
  rw [Finset.sum_range_succ, Finset.mul_sum]
  congr 1
  exact Finset.sum_congr rfl fun j _ => rescale_sum Finset.univ (s j) (v j) μ μ'

/-- The same for the sums of the weights themselves. -/
theorem tile_update_one (n : ℕ) (s : ℕ → Fin 512 → ℝ) (μ μ' : ℝ) :
    Real.exp (μ - μ') * (∑ j ∈ range n, ∑ e : Fin 512, Real.exp (s j e - μ))
        + ∑ e : Fin 512, Real.exp (s n e - μ')
      = ∑ j ∈ range (n + 1), ∑ e : Fin 512, Real.exp (s j e - μ') := by
  have h := tile_update n s (fun _ _ => (1 : ℝ)) μ μ'
  simpa only [mul_one] using h

/-- Tile number and offset determine the key, and every key has them: `k = 512·(k / 512) + k % 512`. -/
theorem key_bijective : Function.Bijective (fun p : Fin 8 × Fin 512 => key p.1.val p.2) := by
  refine ⟨fun p p' h => ?_, fun k => ?_⟩
  · have h' : (key p.1.val p.2).val = (key p'.1.val p'.2).val := congrArg Fin.val h
    rw [key_val _ p.1.isLt, key_val _ p'.1.isLt] at h'
    have h1 := p.2.isLt
    have h2 := p'.2.isLt
    refine Prod.ext (Fin.ext ?_) (Fin.ext ?_) <;> omega
  · have hk := k.isLt
    refine ⟨(⟨k.val / 512, by omega⟩, ⟨k.val % 512, Nat.mod_lt _ (by norm_num)⟩), Fin.ext ?_⟩
    show (key (k.val / 512) ⟨k.val % 512, _⟩).val = k.val
    rw [key_val _ (by omega)]
    show 512 * (k.val / 512) + k.val % 512 = k.val
    omega

/-- Eight tiles of 512 keys are all 4096 keys. -/
theorem sum_tiles (f : Fin 4096 → ℝ) :
    ∑ j ∈ range 8, ∑ e : Fin 512, f (key j e) = ∑ k : Fin 4096, f k := by
  rw [Finset.sum_range (fun j => ∑ e : Fin 512, f (key j e)),
    ← Fintype.sum_prod_type (f := fun p : Fin 8 × Fin 512 => f (key p.1.val p.2))]
  exact Fintype.sum_bijective _ key_bijective _ _ fun _ => rfl

end Cert.Attention
-- ==== Proof.Step.lean ====
/-
  One key tile, over the reals.

  When the tile's input rows, the weights, the projected queries and the running maximum, sum and weighted sum all
  hold real numbers, so does everything the tile computes, and the new sum and weighted sum are what the tile-by-tile
  law for shifted exponentials says (`Cert.Attention.tile_update`).  `Reads … n` records that the four carried
  buffers hold, row by row, the projected queries, a real shift `μ`, and the sums over the first `n` tiles of
  `exp (score - μ)` and of `exp (score - μ) · value`.  The seeds satisfy it for `n = 0` (`Reads.seed`), and one tile
  takes `n` to `n + 1` (`Reads.step`).
-/
import proofs.«125697_j82205674045992_2_alg».proof.Proof.Payloads
import proofs.«125697_j82205674045992_2_alg».proof.Proof.Spec
import proofs.«125697_j82205674045992_2_alg».proof.Proof.Tiles
import proofs.«125697_j82205674045992_2_alg».proof.Proof.Consts
import proofs.«125697_j82205674045992_2_alg».proof.Proof.ERealFacts

noncomputable section

open Idealize.ShloMosaic Idealize.ShloMosaic.ValueIdx

namespace Cert.KernelIdeal.Step

open Cert.KernelIdeal Cert.KernelIdeal.Gen Cert.KernelIdeal.Payloads Cert.Attention Finset

section Tile

variable (v6 : FVec Ideal S1x512x256 .f32) (x2 : FVec Ideal S256x256 .f32) (x3 : FVec Ideal S256x256 .bf16)
  (q : FVec Ideal S4096x256 .f32)
  (Xt : Fin 512 → Fin 256 → ℝ) (Wk Wv : Fin 256 → Fin 256 → ℝ) (Q : Fin 4096 → Fin 256 → ℝ)
  (hv6 : ∀ (e : Fin 512) (h : Fin 256), v6 (ix3 (0 : Fin 1) e h) = ((Xt e h : ℝ) : EReal))
  (hx2 : ∀ h d : Fin 256, x2 (ix2 h d) = ((Wk h d : ℝ) : EReal))
  (hx3 : ∀ h d : Fin 256, x3 (ix2 h d) = ((Wv h d : ℝ) : EReal))
  (hq : ∀ (r : Fin 4096) (d : Fin 256), q (ix2 r d) = ((Q r d : ℝ) : EReal))

include hv6 hx2 in
/-- A key of the tile is the real projection. -/
theorem keyT_real (e : Fin 512) (d : Fin 256) : keyT v6 x2 e d = ((proj Xt Wk e d : ℝ) : EReal) := by
  unfold keyT proj
  refine (Finset.sum_congr rfl fun h _ => ?_).trans (coe_sum Finset.univ fun h => Xt e h * Wk h d)
  rw [hv6, hx2, EReal.coe_mul]

include hv6 hx3 in
/-- A value of the tile is the real projection. -/
theorem valT_real (e : Fin 512) (d : Fin 256) : valT v6 x3 e d = ((proj Xt Wv e d : ℝ) : EReal) := by
  unfold valT proj
  refine (Finset.sum_congr rfl fun h _ => ?_).trans (coe_sum Finset.univ fun h => Xt e h * Wv h d)
  rw [hv6, hx3, EReal.coe_mul]

include hv6 hx2 hq in
/-- A score of the tile is the real score. -/
theorem scoreT_real (r : Fin 4096) (e : Fin 512) :
    scoreT v6 x2 q r e = ((score Q (proj Xt Wk) r e : ℝ) : EReal) := by
  unfold scoreT score
  rw [Consts.ofBits_sixteenth, EReal.coe_mul]
  refine congrArg₂ (· * ·) ?_ rfl
  refine (Finset.sum_congr rfl fun d _ => ?_).trans (coe_sum Finset.univ fun d => Q r d * proj Xt Wk e d)
  rw [hq, keyT_real v6 x2 Xt Wk hv6 hx2, EReal.coe_mul]

variable (m : FVec Ideal S4096x1 .f32) (r : Fin 4096) (μ : ℝ) (hm : m (ix2 r (0 : Fin 1)) = ((μ : ℝ) : EReal))

include hv6 hx2 hq hm in
/-- The new running maximum of a row is a real. -/
theorem newMax_real : ∃ μ' : ℝ, k0_pay12 (F := Ideal) v6 x2 q m (ix2 r (0 : Fin 1)) = ((μ' : ℝ) : EReal) := by
  rw [pay12_apply, hm, Consts.ofBits_neg_inf,
    Finset.fold_congr (g := fun e => ((score Q (proj Xt Wk) r e : ℝ) : EReal))
      (fun e _ => scoreT_real v6 x2 q Xt Wk Q hv6 hx2 hq r e)]
  exact max_fold_real Finset.univ ⊥ bot_lt_top (fun e => score Q (proj Xt Wk) r e) μ

variable (μ' : ℝ) (hμ' : k0_pay12 (F := Ideal) v6 x2 q m (ix2 r (0 : Fin 1)) = ((μ' : ℝ) : EReal))

include hv6 hx2 hq hμ' in
/-- A weight of the tile. -/
theorem weight_real (e : Fin 512) :
    k0_pay13 (F := Ideal) v6 x2 q m (ix2 r e) = ((Real.exp (score Q (proj Xt Wk) r e - μ') : ℝ) : EReal) := by
  rw [pay13_apply, hμ', scoreT_real v6 x2 q Xt Wk Q hv6 hx2 hq, ← EReal.coe_sub, Ideal.exp_coe]

include hm hμ' in
/-- The correction factor of the tile. -/
theorem corr_real :
    k0_pay14 (F := Ideal) v6 x2 q m (ix2 r (0 : Fin 1)) = ((Real.exp (μ - μ') : ℝ) : EReal) := by
  rw [pay14_apply, hm, hμ', ← EReal.coe_sub, Ideal.exp_coe]

include hv6 hx2 hq hm hμ' in
/-- The new running sum of a row. -/
theorem newSum_real (l : FVec Ideal S4096x1 .f32) (lam : ℝ) (hl : l (ix2 r (0 : Fin 1)) = ((lam : ℝ) : EReal)) :
    k0_pay15 (F := Ideal) v6 x2 q m l (ix2 r (0 : Fin 1))
      = ((Real.exp (μ - μ') * lam + ∑ e : Fin 512, Real.exp (score Q (proj Xt Wk) r e - μ') : ℝ) : EReal) := by
  rw [pay15_apply, corr_real v6 x2 q m r μ hm μ' hμ', hl,
    Finset.sum_congr rfl (fun e _ => weight_real v6 x2 q Xt Wk Q hv6 hx2 hq m r μ' hμ' e),
    coe_sum, ← EReal.coe_mul, ← EReal.coe_add]

include hv6 hx2 hx3 hq hm hμ' in
/-- The new running weighted sum of a row, at feature `d`. -/
theorem newAcc_real (a : FVec Ideal S4096x256 .f32) (d : Fin 256) (al : ℝ) (ha : a (ix2 r d) = ((al : ℝ) : EReal)) :
    k0_pay2 (F := Ideal) (k0_pay10 (F := Ideal) v6 x3) (k0_pay13 (F := Ideal) v6 x2 q m) (k0_pay14 (F := Ideal) v6 x2 q m) a (ix2 r d)
      = ((Real.exp (μ - μ') * al
          + ∑ e : Fin 512, Real.exp (score Q (proj Xt Wk) r e - μ') * proj Xt Wv e d : ℝ) : EReal) := by
  rw [pay2_apply, corr_real v6 x2 q m r μ hm μ' hμ', ha,
    Finset.sum_congr rfl (fun e _ => show k0_pay13 (F := Ideal) v6 x2 q m (ix2 r e) * k0_pay10 (F := Ideal) v6 x3 (ix2 e d)
        = ((Real.exp (score Q (proj Xt Wk) r e - μ') * proj Xt Wv e d : ℝ) : EReal) by
      rw [weight_real v6 x2 q Xt Wk Q hv6 hx2 hq m r μ' hμ' e, pay10_apply, valT_real v6 x3 Xt Wv hv6 hx3,
        EReal.coe_mul]),
    coe_sum, ← EReal.coe_mul, ← EReal.coe_add]

end Tile

/-- The four carried buffers hold: the projected queries `Q`; per row a real shift `μ`; the sum over the first `n`
    tiles of `exp (S r j e - μ)`; and, per feature, the sum of `exp (S r j e - μ) · V j e d`.  (`S r j e` is the score
    of row `r` against key `e` of tile `j`, `V j e d` the value of that key.) -/
structure Reads (qs : FVec Ideal S4096x256 .f32) (ms ls : FVec Ideal S4096x1 .f32) (acs : FVec Ideal S4096x256 .f32)
    (Q : Fin 4096 → Fin 256 → ℝ) (S : Fin 4096 → ℕ → Fin 512 → ℝ) (V : ℕ → Fin 512 → Fin 256 → ℝ) (n : ℕ) : Prop where
  q : ∀ (r : Fin 4096) (d : Fin 256), qs (ix2 r d) = ((Q r d : ℝ) : EReal)
  rest : ∀ r : Fin 4096, ∃ μ : ℝ, ms (ix2 r (0 : Fin 1)) = ((μ : ℝ) : EReal)
    ∧ ls (ix2 r (0 : Fin 1)) = ((∑ j ∈ range n, ∑ e : Fin 512, Real.exp (S r j e - μ) : ℝ) : EReal)
    ∧ ∀ d : Fin 256, acs (ix2 r d) = ((∑ j ∈ range n, ∑ e : Fin 512, Real.exp (S r j e - μ) * V j e d : ℝ) : EReal)

/-- After the seeds: no tile seen yet, both sums zero, the shift the seed's real value. -/
theorem Reads.seed (qs : FVec Ideal S4096x256 .f32) (Q : Fin 4096 → Fin 256 → ℝ)
    (S : Fin 4096 → ℕ → Fin 512 → ℝ) (V : ℕ → Fin 512 → Fin 256 → ℝ)
    (hq : ∀ (r : Fin 4096) (d : Fin 256), qs (ix2 r d) = ((Q r d : ℝ) : EReal)) :
    Reads qs (k0_pay6 (F := Ideal)) (k0_pay7 (F := Ideal)) (k0_pay8 (F := Ideal)) Q S V 0 where
  q := hq
  rest r := by
    obtain ⟨μ, hμ⟩ := Consts.ofBits_seed_real
    refine ⟨μ, (pay6_apply _).trans hμ, ?_, fun d => ?_⟩
    · rw [pay7_apply, Finset.range_zero, Finset.sum_empty, EReal.coe_zero]
    · rw [pay8_apply, Finset.range_zero, Finset.sum_empty, EReal.coe_zero]

/-- One tile: from the first `n` tiles to the first `n + 1`, when tile `n`'s scores and values are those of the
    rows `Xt` the tile reads. -/
theorem Reads.step {qs : FVec Ideal S4096x256 .f32} {ms ls : FVec Ideal S4096x1 .f32} {acs : FVec Ideal S4096x256 .f32}
    {Q : Fin 4096 → Fin 256 → ℝ} {S : Fin 4096 → ℕ → Fin 512 → ℝ} {V : ℕ → Fin 512 → Fin 256 → ℝ} {n : ℕ}
    (hR : Reads qs ms ls acs Q S V n)
    (v6 : FVec Ideal S1x512x256 .f32) (x2 : FVec Ideal S256x256 .f32) (x3 : FVec Ideal S256x256 .bf16)
    (Xt : Fin 512 → Fin 256 → ℝ) (Wk Wv : Fin 256 → Fin 256 → ℝ)
    (hv6 : ∀ (e : Fin 512) (h : Fin 256), v6 (ix3 (0 : Fin 1) e h) = ((Xt e h : ℝ) : EReal))
    (hx2 : ∀ h d : Fin 256, x2 (ix2 h d) = ((Wk h d : ℝ) : EReal))
    (hx3 : ∀ h d : Fin 256, x3 (ix2 h d) = ((Wv h d : ℝ) : EReal))
    (hS : ∀ (r : Fin 4096) (e : Fin 512), S r n e = score Q (proj Xt Wk) r e)
    (hV : ∀ (e : Fin 512) (d : Fin 256), V n e d = proj Xt Wv e d) :
    Reads qs (k0_pay3 (F := Ideal) (k0_pay12 (F := Ideal) v6 x2 qs ms))
      (k0_pay1 (F := Ideal) (k0_pay15 (F := Ideal) v6 x2 qs ms ls))
      (k0_pay2 (F := Ideal) (k0_pay10 (F := Ideal) v6 x3) (k0_pay13 (F := Ideal) v6 x2 qs ms) (k0_pay14 (F := Ideal) v6 x2 qs ms) acs)
      Q S V (n + 1) where
  q := hR.q
  rest r := by
    obtain ⟨μ, hm, hl, ha⟩ := hR.rest r
    obtain ⟨μ', hμ'⟩ := newMax_real v6 x2 qs Xt Wk Q hv6 hx2 hR.q ms r μ hm
    refine ⟨μ', ?_, ?_, fun d => ?_⟩
    · rw [pay3_eq]; exact hμ'
    · rw [pay1_eq, newSum_real v6 x2 qs Xt Wk Q hv6 hx2 hR.q ms r μ hm μ' hμ' ls _ hl]
      refine congrArg _ ?_
      have h := tile_update_one n (S r) μ μ'
      rw [← h]
      refine congrArg₂ (· + ·) rfl (Finset.sum_congr rfl fun e _ => ?_)
      rw [hS]
    · rw [newAcc_real v6 x2 x3 qs Xt Wk Wv Q hv6 hx2 hx3 hR.q ms r μ hm μ' hμ' acs d _ (ha d)]
      refine congrArg _ ?_
      have h := tile_update n (S r) (fun j e => V j e d) μ μ'
      rw [← h]
      refine congrArg₂ (· + ·) rfl (Finset.sum_congr rfl fun e _ => ?_)
      rw [hS, hV]

end Cert.KernelIdeal.Step

end
-- ==== Proof.Pieces.lean ====
/-
  What one grid point leaves in the kernel's four carried buffers and in its output block, as pure functions of
  what the point reads.

  The body works on one batch element's `[4096, 256]` input block `x0`, the weights `x1` (query), `x2` (key), `x3`
  (value), and four buffers that live across the eight key tiles of a batch element: the projected queries `q`, the
  running row maximum `m`, the running row sum `l` and the running weighted sum `a`.  At key tile `kv` it slices
  rows `512·kv … 512·kv + 511` of the input block (`tile`), projects them to keys and values, forms the scaled
  scores of all 4096 queries against these 512 keys, and updates `m`, `l`, `a` (`newM`, `newL`, `newA`).  At the
  first tile it first stores the query projection (`newQ`) and the starting values (`seedM`, zero, zero); at the last
  tile it also stores `a / l` into the output block (`outOf`).  Each lemma below says that what the run of one case
  found in a buffer is the corresponding function — for any float instance.
-/
import proofs.«125697_j82205674045992_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 512 rows of the input block that key tile `i 1` works on. -/
def tile (i : grid0.Coords) (x0 : Vec F S1x4096x256 .f32) : Vec F S1x512x256 .f32 :=
  View.ld x0 (Rect.unit (s := S1x4096x256) (k0_off1 i) S1x512x256.size (k0_off1_inb i))

/-- The query projection of the whole block. -/
def newQ (x0 : Vec F S1x4096x256 .f32) (x1 : Vec F S256x256 .f32) : Vec F S4096x256 .f32 := k0_pay5 x0 x1
/-- The starting value of the running maximum. -/
def seedM : Vec F S4096x1 .f32 := k0_pay6
/-- The starting value of the running sum: zero. -/
def seedL : Vec F S4096x1 .f32 := k0_pay7
/-- The starting value of the running weighted sum: zero. -/
def seedA : Vec F S4096x256 .f32 := k0_pay8
/-- The running maximum after the tile. -/
def newM (i : grid0.Coords) (x0 : Vec F S1x4096x256 .f32) (x2 : Vec F S256x256 .f32) (q : Vec F S4096x256 .f32)
    (m : Vec F S4096x1 .f32) : Vec F S4096x1 .f32 := k0_pay3 (k0_pay12 (tile i x0) x2 q m)
/-- The running sum after the tile. -/
def newL (i : grid0.Coords) (x0 : Vec F S1x4096x256 .f32) (x2 : Vec F S256x256 .f32) (q : Vec F S4096x256 .f32)
    (m l : Vec F S4096x1 .f32) : Vec F S4096x1 .f32 := k0_pay1 (k0_pay15 (tile i x0) x2 q m l)
/-- The running weighted sum after the tile. -/
def newA (i : grid0.Coords) (x0 : Vec F S1x4096x256 .f32) (x2 : Vec F S256x256 .f32) (x3 : Vec F S256x256 .bf16)
    (q : Vec F S4096x256 .f32) (m : Vec F S4096x1 .f32) (a : Vec F S4096x256 .f32) : Vec F S4096x256 .f32 :=
  k0_pay2 (k0_pay10 (tile i x0) x3) (k0_pay13 (tile i x0) x2 q m) (k0_pay14 (tile i x0) x2 q m) a
/-- The output block: the weighted sum divided by the sum, row by row. -/
def outOf (a : Vec F S4096x256 .f32) (l : Vec F S4096x1 .f32) : Vec F S1x4096x256 .f32 := k0_pay4 a l

/-! ## A middle tile -/

/-- A middle tile leaves the projected queries as they were. -/
theorem midQ (c : Dev nD) (i : grid0.Coords) (a2 : Memref sig .tc .vmem S1x4096x256 .f32) (h2 : a2.IsWhole) (a3 : Memref sig .tc .vmem S256x256 .f32) (h3 : a3.IsWhole) (a4 : Memref sig .tc .vmem S256x256 .f32) (h4 : a4.IsWhole) (a5 : Memref sig .tc .vmem S256x256 .bf16) (h5 : a5.IsWhole) (a6 : Memref sig .tc .vmem S1x4096x256 .f32) (h6 : a6.IsWhole) (a7 : Memref sig .tc .vmem S4096x256 .f32) (h7 : a7.IsWhole) (a8 : Memref sig .tc .vmem S4096x1 .f32) (h8 : a8.IsWhole) (a9 : Memref sig .tc .vmem S4096x1 .f32) (h9 : a9.IsWhole) (a10 : Memref sig .tc .vmem S4096x256 .f32) (h10 : a10.IsWhole) (hc0 : ¬cond0_0 i) (hc1 : ¬cond0_1 i)
    (x0 : Vec F S1x4096x256 .f32) (x1 : Vec F S256x256 .f32) (x2 : Vec F S256x256 .f32) (x3 : Vec F S256x256 .bf16)
    (xs0 : Vec F S4096x256 .f32) (xs1 : Vec F S4096x1 .f32) (xs2 : Vec F S4096x1 .f32) (xs3 : Vec F S4096x256 .f32) :
    sout0_B_0 c i a2 h2 a3 h3 a4 h4 a5 h5 a6 h6 a7 h7 a8 h8 a9 h9 a10 h10 hc0 hc1 x0 x1 x2 x3 xs0 xs1 xs2 xs3 = xs0 := rfl

/-- A middle tile leaves the running maximum at its update. -/
theorem midM (c : Dev nD) (i : grid0.Coords) (a2 : Memref sig .tc .vmem S1x4096x256 .f32) (h2 : a2.IsWhole) (a3 : Memref sig .tc .vmem S256x256 .f32) (h3 : a3.IsWhole) (a4 : Memref sig .tc .vmem S256x256 .f32) (h4 : a4.IsWhole) (a5 : Memref sig .tc .vmem S256x256 .bf16) (h5 : a5.IsWhole) (a6 : Memref sig .tc .vmem S1x4096x256 .f32) (h6 : a6.IsWhole) (a7 : Memref sig .tc .vmem S4096x256 .f32) (h7 : a7.IsWhole) (a8 : Memref sig .tc .vmem S4096x1 .f32) (h8 : a8.IsWhole) (a9 : Memref sig .tc .vmem S4096x1 .f32) (h9 : a9.IsWhole) (a10 : Memref sig .tc .vmem S4096x256 .f32) (h10 : a10.IsWhole) (hc0 : ¬cond0_0 i) (hc1 : ¬cond0_1 i)
    (x0 : Vec F S1x4096x256 .f32) (x1 : Vec F S256x256 .f32) (x2 : Vec F S256x256 .f32) (x3 : Vec F S256x256 .bf16)
    (xs0 : Vec F S4096x256 .f32) (xs1 : Vec F S4096x1 .f32) (xs2 : Vec F S4096x1 .f32) (xs3 : Vec F S4096x256 .f32) :
    sout0_B_1 c i a2 h2 a3 h3 a4 h4 a5 h5 a6 h6 a7 h7 a8 h8 a9 h9 a10 h10 hc0 hc1 x0 x1 x2 x3 xs0 xs1 xs2 xs3 = newM i x0 x2 xs0 xs1 := by
  unfold sout0_B_1
  rw [View.read_writes_eq_canon _ _ _ (scover0_B_1 c i a2 h2 a3 h3 a4 h4 a5 h5 a6 h6 a7 h7 a8 h8 a9 h9 a10 h10 hc0 hc1 x0 x1 x2 x3 xs0 xs1 xs2 xs3)]
  unfold kernelRun0_B
  dsimp only
  sl_unfold_words
  rw [View.canon_unit_zero (S := S4096x1) hz2]
  simp only [View.readAt_eq_ld, h2.read_unread, h3.read_unread, h4.read_unread, h5.read_unread, h7.read_unread, h8.read_unread, h9.read_unread, h10.read_unread, View.ld_unit_zero (S := S256x256) hz2, View.ld_unit_zero (S := S4096x256) hz2, View.ld_unit_zero (S := S4096x1) hz2, View.ld_unit_zero (S := S1x4096x256) hz3]
  rfl

/-- A middle tile leaves the running sum at its update. -/
theorem midL (c : Dev nD) (i : grid0.Coords) (a2 : Memref sig .tc .vmem S1x4096x256 .f32) (h2 : a2.IsWhole) (a3 : Memref sig .tc .vmem S256x256 .f32) (h3 : a3.IsWhole) (a4 : Memref sig .tc .vmem S256x256 .f32) (h4 : a4.IsWhole) (a5 : Memref sig .tc .vmem S256x256 .bf16) (h5 : a5.IsWhole) (a6 : Memref sig .tc .vmem S1x4096x256 .f32) (h6 : a6.IsWhole) (a7 : Memref sig .tc .vmem S4096x256 .f32) (h7 : a7.IsWhole) (a8 : Memref sig .tc .vmem S4096x1 .f32) (h8 : a8.IsWhole) (a9 : Memref sig .tc .vmem S4096x1 .f32) (h9 : a9.IsWhole) (a10 : Memref sig .tc .vmem S4096x256 .f32) (h10 : a10.IsWhole) (hc0 : ¬cond0_0 i) (hc1 : ¬cond0_1 i)
    (x0 : Vec F S1x4096x256 .f32) (x1 : Vec F S256x256 .f32) (x2 : Vec F S256x256 .f32) (x3 : Vec F S256x256 .bf16)
    (xs0 : Vec F S4096x256 .f32) (xs1 : Vec F S4096x1 .f32) (xs2 : Vec F S4096x1 .f32) (xs3 : Vec F S4096x256 .f32) :
    sout0_B_2 c i a2 h2 a3 h3 a4 h4 a5 h5 a6 h6 a7 h7 a8 h8 a9 h9 a10 h10 hc0 hc1 x0 x1 x2 x3 xs0 xs1 xs2 xs3 = newL i x0 x2 xs0 xs1 xs2 := by
  unfold sout0_B_2
  rw [View.read_writes_eq_canon _ _ _ (scover0_B_2 c i a2 h2 a3 h3 a4 h4 a5 h5 a6 h6 a7 h7 a8 h8 a9 h9 a10 h10 hc0 hc1 x0 x1 x2 x3 xs0 xs1 xs2 xs3)]
  unfold kernelRun0_B
  dsimp only
  sl_unfold_words
  rw [View.canon_unit_zero (S := S4096x1) hz2]
  simp only [View.readAt_eq_ld, h2.read_unread, h3.read_unread, h4.read_unread, h5.read_unread, h7.read_unread, h8.read_unread, h9.read_unread, h10.read_unread, View.ld_unit_zero (S := S256x256) hz2, View.ld_unit_zero (S := S4096x256) hz2, View.ld_unit_zero (S := S4096x1) hz2, View.ld_unit_zero (S := S1x4096x256) hz3]
  rfl

/-- A middle tile leaves the running weighted sum at its update. -/
theorem midA (c : Dev nD) (i : grid0.Coords) (a2 : Memref sig .tc .vmem S1x4096x256 .f32) (h2 : a2.IsWhole) (a3 : Memref sig .tc .vmem S256x256 .f32) (h3 : a3.IsWhole) (a4 : Memref sig .tc .vmem S256x256 .f32) (h4 : a4.IsWhole) (a5 : Memref sig .tc .vmem S256x256 .bf16) (h5 : a5.IsWhole) (a6 : Memref sig .tc .vmem S1x4096x256 .f32) (h6 : a6.IsWhole) (a7 : Memref sig .tc .vmem S4096x256 .f32) (h7 : a7.IsWhole) (a8 : Memref sig .tc .vmem S4096x1 .f32) (h8 : a8.IsWhole) (a9 : Memref sig .tc .vmem S4096x1 .f32) (h9 : a9.IsWhole) (a10 : Memref sig .tc .vmem S4096x256 .f32) (h10 : a10.IsWhole) (hc0 : ¬cond0_0 i) (hc1 : ¬cond0_1 i)
    (x0 : Vec F S1x4096x256 .f32) (x1 : Vec F S256x256 .f32) (x2 : Vec F S256x256 .f32) (x3 : Vec F S256x256 .bf16)
    (xs0 : Vec F S4096x256 .f32) (xs1 : Vec F S4096x1 .f32) (xs2 : Vec F S4096x1 .f32) (xs3 : Vec F S4096x256 .f32) :
    sout0_B_3 c i a2 h2 a3 h3 a4 h4 a5 h5 a6 h6 a7 h7 a8 h8 a9 h9 a10 h10 hc0 hc1 x0 x1 x2 x3 xs0 xs1 xs2 xs3 = newA i x0 x2 x3 xs0 xs1 xs3 := by
  unfold sout0_B_3
  rw [View.read_writes_eq_canon _ _ _ (scover0_B_3 c i a2 h2 a3 h3 a4 h4 a5 h5 a6 h6 a7 h7 a8 h8 a9 h9 a10 h10 hc0 hc1 x0 x1 x2 x3 xs0 xs1 xs2 xs3)]
  unfold kernelRun0_B
  dsimp only
  sl_unfold_words
  rw [View.canon_unit_zero (S := S4096x256) hz2]
  simp only [View.readAt_eq_ld, h2.read_unread, h3.read_unread, h4.read_unread, h5.read_unread, h7.read_unread, h8.read_unread, h9.read_unread, h10.read_unread, View.ld_unit_zero (S := S256x256) hz2, View.ld_unit_zero (S := S4096x256) hz2, View.ld_unit_zero (S := S4096x1) hz2, View.ld_unit_zero (S := S1x4096x256) hz3]
  rfl

/-! ## The last tile -/

/-- The last tile leaves the projected queries as they were. -/
theorem lastQ (c : Dev nD) (i : grid0.Coords) (a2 : Memref sig .tc .vmem S1x4096x256 .f32) (h2 : a2.IsWhole) (a3 : Memref sig .tc .vmem S256x256 .f32) (h3 : a3.IsWhole) (a4 : Memref sig .tc .vmem S256x256 .f32) (h4 : a4.IsWhole) (a5 : Memref sig .tc .vmem S256x256 .bf16) (h5 : a5.IsWhole) (a6 : Memref sig .tc .vmem S1x4096x256 .f32) (h6 : a6.IsWhole) (a7 : Memref sig .tc .vmem S4096x256 .f32) (h7 : a7.IsWhole) (a8 : Memref sig .tc .vmem S4096x1 .f32) (h8 : a8.IsWhole) (a9 : Memref sig .tc .vmem S4096x1 .f32) (h9 : a9.IsWhole) (a10 : Memref sig .tc .vmem S4096x256 .f32) (h10 : a10.IsWhole) (hc0 : ¬cond0_0 i) (hc1 : cond0_1 i)
    (x0 : Vec F S1x4096x256 .f32) (x1 : Vec F S256x256 .f32) (x2 : Vec F S256x256 .f32) (x3 : Vec F S256x256 .bf16)
    (xs0 : Vec F S4096x256 .f32) (xs1 : Vec F S4096x1 .f32) (xs2 : Vec F S4096x1 .f32) (xs3 : Vec F S4096x256 .f32) :
    sout0_C_0 c i a2 h2 a3 h3 a4 h4 a5 h5 a6 h6 a7 h7 a8 h8 a9 h9 a10 h10 hc0 hc1 x0 x1 x2 x3 xs0 xs1 xs2 xs3 = xs0 := rfl

/-- The last tile leaves the running maximum at its update. -/
theorem lastM (c : Dev nD) (i : grid0.Coords) (a2 : Memref sig .tc .vmem S1x4096x256 .f32) (h2 : a2.IsWhole) (a3 : Memref sig .tc .vmem S256x256 .f32) (h3 : a3.IsWhole) (a4 : Memref sig .tc .vmem S256x256 .f32) (h4 : a4.IsWhole) (a5 : Memref sig .tc .vmem S256x256 .bf16) (h5 : a5.IsWhole) (a6 : Memref sig .tc .vmem S1x4096x256 .f32) (h6 : a6.IsWhole) (a7 : Memref sig .tc .vmem S4096x256 .f32) (h7 : a7.IsWhole) (a8 : Memref sig .tc .vmem S4096x1 .f32) (h8 : a8.IsWhole) (a9 : Memref sig .tc .vmem S4096x1 .f32) (h9 : a9.IsWhole) (a10 : Memref sig .tc .vmem S4096x256 .f32) (h10 : a10.IsWhole) (hc0 : ¬cond0_0 i) (hc1 : cond0_1 i)
    (x0 : Vec F S1x4096x256 .f32) (x1 : Vec F S256x256 .f32) (x2 : Vec F S256x256 .f32) (x3 : Vec F S256x256 .bf16)
    (xs0 : Vec F S4096x256 .f32) (xs1 : Vec F S4096x1 .f32) (xs2 : Vec F S4096x1 .f32) (xs3 : Vec F S4096x256 .f32) :
    sout0_C_1 c i a2 h2 a3 h3 a4 h4 a5 h5 a6 h6 a7 h7 a8 h8 a9 h9 a10 h10 hc0 hc1 x0 x1 x2 x3 xs0 xs1 xs2 xs3 = newM i x0 x2 xs0 xs1 := by
  unfold sout0_C_1
  rw [View.read_writes_eq_canon _ _ _ (scover0_C_1 c i a2 h2 a3 h3 a4 h4 a5 h5 a6 h6 a7 h7 a8 h8 a9 h9 a10 h10 hc0 hc1 x0 x1 x2 x3 xs0 xs1 xs2 xs3)]
  unfold kernelRun0_C
  dsimp only
  sl_unfold_words
  rw [View.canon_unit_zero (S := S4096x1) hz2]
  simp only [View.readAt_eq_ld, h2.read_unread, h3.read_unread, h4.read_unread, h5.read_unread, h7.read_unread, h8.read_unread, h9.read_unread, h10.read_unread, View.ld_unit_zero (S := S256x256) hz2, View.ld_unit_zero (S := S4096x256) hz2, View.ld_unit_zero (S := S4096x1) hz2, View.ld_unit_zero (S := S1x4096x256) hz3]
  rfl

/-- The last tile leaves the running sum at its update. -/
theorem lastL (c : Dev nD) (i : grid0.Coords) (a2 : Memref sig .tc .vmem S1x4096x256 .f32) (h2 : a2.IsWhole) (a3 : Memref sig .tc .vmem S256x256 .f32) (h3 : a3.IsWhole) (a4 : Memref sig .tc .vmem S256x256 .f32) (h4 : a4.IsWhole) (a5 : Memref sig .tc .vmem S256x256 .bf16) (h5 : a5.IsWhole) (a6 : Memref sig .tc .vmem S1x4096x256 .f32) (h6 : a6.IsWhole) (a7 : Memref sig .tc .vmem S4096x256 .f32) (h7 : a7.IsWhole) (a8 : Memref sig .tc .vmem S4096x1 .f32) (h8 : a8.IsWhole) (a9 : Memref sig .tc .vmem S4096x1 .f32) (h9 : a9.IsWhole) (a10 : Memref sig .tc .vmem S4096x256 .f32) (h10 : a10.IsWhole) (hc0 : ¬cond0_0 i) (hc1 : cond0_1 i)
    (x0 : Vec F S1x4096x256 .f32) (x1 : Vec F S256x256 .f32) (x2 : Vec F S256x256 .f32) (x3 : Vec F S256x256 .bf16)
    (xs0 : Vec F S4096x256 .f32) (xs1 : Vec F S4096x1 .f32) (xs2 : Vec F S4096x1 .f32) (xs3 : Vec F S4096x256 .f32) :
    sout0_C_2 c i a2 h2 a3 h3 a4 h4 a5 h5 a6 h6 a7 h7 a8 h8 a9 h9 a10 h10 hc0 hc1 x0 x1 x2 x3 xs0 xs1 xs2 xs3 = newL i x0 x2 xs0 xs1 xs2 := by
  unfold sout0_C_2
  rw [View.read_writes_eq_canon _ _ _ (scover0_C_2 c i a2 h2 a3 h3 a4 h4 a5 h5 a6 h6 a7 h7 a8 h8 a9 h9 a10 h10 hc0 hc1 x0 x1 x2 x3 xs0 xs1 xs2 xs3)]
  unfold kernelRun0_C
  dsimp only
  sl_unfold_words
  rw [View.canon_unit_zero (S := S4096x1) hz2]
  simp only [View.readAt_eq_ld, h2.read_unread, h3.read_unread, h4.read_unread, h5.read_unread, h7.read_unread, h8.read_unread, h9.read_unread, h10.read_unread, View.ld_unit_zero (S := S256x256) hz2, View.ld_unit_zero (S := S4096x256) hz2, View.ld_unit_zero (S := S4096x1) hz2, View.ld_unit_zero (S := S1x4096x256) hz3]
  rfl

/-- The last tile leaves the running weighted sum at its update. -/
theorem lastA (c : Dev nD) (i : grid0.Coords) (a2 : Memref sig .tc .vmem S1x4096x256 .f32) (h2 : a2.IsWhole) (a3 : Memref sig .tc .vmem S256x256 .f32) (h3 : a3.IsWhole) (a4 : Memref sig .tc .vmem S256x256 .f32) (h4 : a4.IsWhole) (a5 : Memref sig .tc .vmem S256x256 .bf16) (h5 : a5.IsWhole) (a6 : Memref sig .tc .vmem S1x4096x256 .f32) (h6 : a6.IsWhole) (a7 : Memref sig .tc .vmem S4096x256 .f32) (h7 : a7.IsWhole) (a8 : Memref sig .tc .vmem S4096x1 .f32) (h8 : a8.IsWhole) (a9 : Memref sig .tc .vmem S4096x1 .f32) (h9 : a9.IsWhole) (a10 : Memref sig .tc .vmem S4096x256 .f32) (h10 : a10.IsWhole) (hc0 : ¬cond0_0 i) (hc1 : cond0_1 i)
    (x0 : Vec F S1x4096x256 .f32) (x1 : Vec F S256x256 .f32) (x2 : Vec F S256x256 .f32) (x3 : Vec F S256x256 .bf16)
    (xs0 : Vec F S4096x256 .f32) (xs1 : Vec F S4096x1 .f32) (xs2 : Vec F S4096x1 .f32) (xs3 : Vec F S4096x256 .f32) :
    sout0_C_3 c i a2 h2 a3 h3 a4 h4 a5 h5 a6 h6 a7 h7 a8 h8 a9 h9 a10 h10 hc0 hc1 x0 x1 x2 x3 xs0 xs1 xs2 xs3 = newA i x0 x2 x3 xs0 xs1 xs3 := by
  unfold sout0_C_3
  rw [View.read_writes_eq_canon _ _ _ (scover0_C_3 c i a2 h2 a3 h3 a4 h4 a5 h5 a6 h6 a7 h7 a8 h8 a9 h9 a10 h10 hc0 hc1 x0 x1 x2 x3 xs0 xs1 xs2 xs3)]
  unfold kernelRun0_C
  dsimp only
  sl_unfold_words
  rw [View.canon_unit_zero (S := S4096x256) hz2]
  simp only [View.readAt_eq_ld, h2.read_unread, h3.read_unread, h4.read_unread, h5.read_unread, h7.read_unread, h8.read_unread, h9.read_unread, h10.read_unread, View.ld_unit_zero (S := S256x256) hz2, View.ld_unit_zero (S := S4096x256) hz2, View.ld_unit_zero (S := S4096x1) hz2, View.ld_unit_zero (S := S1x4096x256) hz3]
  rfl

/-- The last tile stores the quotient of the updated weighted sum by the updated sum into the output block. -/
theorem lastOut (c : Dev nD) (i : grid0.Coords) (a2 : Memref sig .tc .vmem S1x4096x256 .f32) (h2 : a2.IsWhole) (a3 : Memref sig .tc .vmem S256x256 .f32) (h3 : a3.IsWhole) (a4 : Memref sig .tc .vmem S256x256 .f32) (h4 : a4.IsWhole) (a5 : Memref sig .tc .vmem S256x256 .bf16) (h5 : a5.IsWhole) (a6 : Memref sig .tc .vmem S1x4096x256 .f32) (h6 : a6.IsWhole) (a7 : Memref sig .tc .vmem S4096x256 .f32) (h7 : a7.IsWhole) (a8 : Memref sig .tc .vmem S4096x1 .f32) (h8 : a8.IsWhole) (a9 : Memref sig .tc .vmem S4096x1 .f32) (h9 : a9.IsWhole) (a10 : Memref sig .tc .vmem S4096x256 .f32) (h10 : a10.IsWhole) (hc0 : ¬cond0_0 i) (hc1 : cond0_1 i)
    (x0 : Vec F S1x4096x256 .f32) (x1 : Vec F S256x256 .f32) (x2 : Vec F S256x256 .f32) (x3 : Vec F S256x256 .bf16)
    (xs0 : Vec F S4096x256 .f32) (xs1 : Vec F S4096x1 .f32) (xs2 : Vec F S4096x1 .f32) (xs3 : Vec F S4096x256 .f32) :
    out0_C_4 c i a2 h2 a3 h3 a4 h4 a5 h5 a6 h6 a7 h7 a8 h8 a9 h9 a10 h10 hc0 hc1 x0 x1 x2 x3 xs0 xs1 xs2 xs3 = outOf (newA i x0 x2 x3 xs0 xs1 xs3) (newL i x0 x2 xs0 xs1 xs2) := by
  unfold out0_C_4
  rw [View.read_writes_eq_canon _ _ _ (cover0_C_4 c i a2 h2 a3 h3 a4 h4 a5 h5 a6 h6 a7 h7 a8 h8 a9 h9 a10 h10 hc0 hc1 x0 x1 x2 x3 xs0 xs1 xs2 xs3)]
  unfold kernelRun0_C
  dsimp only
  sl_unfold_words
  rw [View.canon_unit_zero (S := S1x4096x256) hz3]
  simp only [View.readCov_unit_zero (S := S4096x256) _ hz2, View.readCov_unit_zero (S := S4096x1) _ hz2]
  simp only [View.readAt_eq_ld, h2.read_unread, h3.read_unread, h4.read_unread, h5.read_unread, h7.read_unread, h8.read_unread, h9.read_unread, h10.read_unread, View.ld_unit_zero (S := S256x256) hz2, View.ld_unit_zero (S := S4096x256) hz2, View.ld_unit_zero (S := S4096x1) hz2, View.ld_unit_zero (S := S1x4096x256) hz3]
  rfl

/-! ## The first tile -/

/-- The first tile stores the query projection. -/
theorem firstQ (c : Dev nD) (i : grid0.Coords) (a2 : Memref sig .tc .vmem S1x4096x256 .f32) (h2 : a2.IsWhole) (a3 : Memref sig .tc .vmem S256x256 .f32) (h3 : a3.IsWhole) (a4 : Memref sig .tc .vmem S256x256 .f32) (h4 : a4.IsWhole) (a5 : Memref sig .tc .vmem S256x256 .bf16) (h5 : a5.IsWhole) (a6 : Memref sig .tc .vmem S1x4096x256 .f32) (h6 : a6.IsWhole) (a7 : Memref sig .tc .vmem S4096x256 .f32) (h7 : a7.IsWhole) (a8 : Memref sig .tc .vmem S4096x1 .f32) (h8 : a8.IsWhole) (a9 : Memref sig .tc .vmem S4096x1 .f32) (h9 : a9.IsWhole) (a10 : Memref sig .tc .vmem S4096x256 .f32) (h10 : a10.IsWhole) (hc0 : cond0_0 i) (hc1 : ¬cond0_1 i)
    (x0 : Vec F S1x4096x256 .f32) (x1 : Vec F S256x256 .f32) (x2 : Vec F S256x256 .f32) (x3 : Vec F S256x256 .bf16) :
    sout0_A_0 c i a2 h2 a3 h3 a4 h4 a5 h5 a6 h6 a7 h7 a8 h8 a9 h9 a10 h10 hc0 hc1 x0 x1 x2 x3 = newQ x0 x1 := by
  unfold sout0_A_0
  rw [View.read_writes_eq_canon _ _ _ (scover0_A_0 c i a2 h2 a3 h3 a4 h4 a5 h5 a6 h6 a7 h7 a8 h8 a9 h9 a10 h10 hc0 hc1 x0 x1 x2 x3)]
  unfold kernelRun0_A
  dsimp only
  sl_unfold_words
  rw [View.canon_unit_zero (S := S4096x256) hz2]
  simp only [View.readAt_eq_ld, h2.read_unread, h3.read_unread, h4.read_unread, h5.read_unread, h7.read_unread, h8.read_unread, h9.read_unread, h10.read_unread, View.ld_unit_zero (S := S256x256) hz2, View.ld_unit_zero (S := S4096x256) hz2, View.ld_unit_zero (S := S4096x1) hz2, View.ld_unit_zero (S := S1x4096x256) hz3]
  rfl

/-- The first tile leaves the running maximum at its update from the starting value. -/
theorem firstM (c : Dev nD) (i : grid0.Coords) (a2 : Memref sig .tc .vmem S1x4096x256 .f32) (h2 : a2.IsWhole) (a3 : Memref sig .tc .vmem S256x256 .f32) (h3 : a3.IsWhole) (a4 : Memref sig .tc .vmem S256x256 .f32) (h4 : a4.IsWhole) (a5 : Memref sig .tc .vmem S256x256 .bf16) (h5 : a5.IsWhole) (a6 : Memref sig .tc .vmem S1x4096x256 .f32) (h6 : a6.IsWhole) (a7 : Memref sig .tc .vmem S4096x256 .f32) (h7 : a7.IsWhole) (a8 : Memref sig .tc .vmem S4096x1 .f32) (h8 : a8.IsWhole) (a9 : Memref sig .tc .vmem S4096x1 .f32) (h9 : a9.IsWhole) (a10 : Memref sig .tc .vmem S4096x256 .f32) (h10 : a10.IsWhole) (hc0 : cond0_0 i) (hc1 : ¬cond0_1 i)
    (x0 : Vec F S1x4096x256 .f32) (x1 : Vec F S256x256 .f32) (x2 : Vec F S256x256 .f32) (x3 : Vec F S256x256 .bf16) :
    sout0_A_1 c i a2 h2 a3 h3 a4 h4 a5 h5 a6 h6 a7 h7 a8 h8 a9 h9 a10 h10 hc0 hc1 x0 x1 x2 x3 = newM i x0 x2 (newQ x0 x1) seedM := by
  unfold sout0_A_1
  rw [View.read_writes_eq_canon _ _ _ (scover0_A_1 c i a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S4096x1) hz2]
  simp only [View.readCov_unit_zero (S := S4096x256) _ hz2, View.readCov_unit_zero (S := S4096x1) _ hz2]
  simp only [View.readAt_eq_ld, h2.read_unread, h3.read_unread, h4.read_unread, h5.read_unread, h7.read_unread, h8.read_unread, h9.read_unread, h10.read_unread, View.ld_unit_zero (S := S256x256) hz2, View.ld_unit_zero (S := S4096x256) hz2, View.ld_unit_zero (S := S4096x1) hz2, View.ld_unit_zero (S := S1x4096x256) hz3]
  rfl

/-- The first tile leaves the running sum at its update from zero. -/
theorem firstL (c : Dev nD) (i : grid0.Coords) (a2 : Memref sig .tc .vmem S1x4096x256 .f32) (h2 : a2.IsWhole) (a3 : Memref sig .tc .vmem S256x256 .f32) (h3 : a3.IsWhole) (a4 : Memref sig .tc .vmem S256x256 .f32) (h4 : a4.IsWhole) (a5 : Memref sig .tc .vmem S256x256 .bf16) (h5 : a5.IsWhole) (a6 : Memref sig .tc .vmem S1x4096x256 .f32) (h6 : a6.IsWhole) (a7 : Memref sig .tc .vmem S4096x256 .f32) (h7 : a7.IsWhole) (a8 : Memref sig .tc .vmem S4096x1 .f32) (h8 : a8.IsWhole) (a9 : Memref sig .tc .vmem S4096x1 .f32) (h9 : a9.IsWhole) (a10 : Memref sig .tc .vmem S4096x256 .f32) (h10 : a10.IsWhole) (hc0 : cond0_0 i) (hc1 : ¬cond0_1 i)
    (x0 : Vec F S1x4096x256 .f32) (x1 : Vec F S256x256 .f32) (x2 : Vec F S256x256 .f32) (x3 : Vec F S256x256 .bf16) :
    sout0_A_2 c i a2 h2 a3 h3 a4 h4 a5 h5 a6 h6 a7 h7 a8 h8 a9 h9 a10 h10 hc0 hc1 x0 x1 x2 x3 = newL i x0 x2 (newQ x0 x1) seedM seedL := by
  unfold sout0_A_2
  rw [View.read_writes_eq_canon _ _ _ (scover0_A_2 c i a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S4096x1) hz2]
  simp only [View.readCov_unit_zero (S := S4096x256) _ hz2, View.readCov_unit_zero (S := S4096x1) _ hz2]
  simp only [View.readAt_eq_ld, h2.read_unread, h3.read_unread, h4.read_unread, h5.read_unread, h7.read_unread, h8.read_unread, h9.read_unread, h10.read_unread, View.ld_unit_zero (S := S256x256) hz2, View.ld_unit_zero (S := S4096x256) hz2, View.ld_unit_zero (S := S4096x1) hz2, View.ld_unit_zero (S := S1x4096x256) hz3]
  rfl

/-- The first tile leaves the running weighted sum at its update from zero. -/
theorem firstA (c : Dev nD) (i : grid0.Coords) (a2 : Memref sig .tc .vmem S1x4096x256 .f32) (h2 : a2.IsWhole) (a3 : Memref sig .tc .vmem S256x256 .f32) (h3 : a3.IsWhole) (a4 : Memref sig .tc .vmem S256x256 .f32) (h4 : a4.IsWhole) (a5 : Memref sig .tc .vmem S256x256 .bf16) (h5 : a5.IsWhole) (a6 : Memref sig .tc .vmem S1x4096x256 .f32) (h6 : a6.IsWhole) (a7 : Memref sig .tc .vmem S4096x256 .f32) (h7 : a7.IsWhole) (a8 : Memref sig .tc .vmem S4096x1 .f32) (h8 : a8.IsWhole) (a9 : Memref sig .tc .vmem S4096x1 .f32) (h9 : a9.IsWhole) (a10 : Memref sig .tc .vmem S4096x256 .f32) (h10 : a10.IsWhole) (hc0 : cond0_0 i) (hc1 : ¬cond0_1 i)
    (x0 : Vec F S1x4096x256 .f32) (x1 : Vec F S256x256 .f32) (x2 : Vec F S256x256 .f32) (x3 : Vec F S256x256 .bf16) :
    sout0_A_3 c i a2 h2 a3 h3 a4 h4 a5 h5 a6 h6 a7 h7 a8 h8 a9 h9 a10 h10 hc0 hc1 x0 x1 x2 x3 = newA i x0 x2 x3 (newQ x0 x1) seedM seedA := by
  unfold sout0_A_3
  rw [View.read_writes_eq_canon _ _ _ (scover0_A_3 c i a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S4096x256) hz2]
  simp only [View.readCov_unit_zero (S := S4096x256) _ hz2, View.readCov_unit_zero (S := S4096x1) _ hz2]
  simp only [View.readAt_eq_ld, h2.read_unread, h3.read_unread, h4.read_unread, h5.read_unread, h7.read_unread, h8.read_unread, h9.read_unread, h10.read_unread, View.ld_unit_zero (S := S256x256) hz2, View.ld_unit_zero (S := S4096x256) hz2, View.ld_unit_zero (S := S4096x1) hz2, View.ld_unit_zero (S := S1x4096x256) hz3]
  rfl

end Cert.KernelIdeal.Pieces

end
-- ==== Proof.Grid.lean ====
/-
  What a grid point reads.

  Grid point `t` (of 32, batch-major) is batch element `t / 8`, key tile `t % 8`.  Its input block is the whole
  `[4096, 256]` slab of that batch element; the three weight blocks are the whole weight matrices (the value
  weights after the host's change of format, which is the identity on the extended reals and is kept abstract here);
  the tile's 512 rows are rows `512·(t % 8) + e` of the slab.
-/
import proofs.«125697_j82205674045992_2_alg».proof.Proof.Pieces
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Grid

open Cert.KernelIdeal Cert.KernelIdeal.Gen Cert.KernelIdeal.Pieces

variable {F : FTy → Type} [FloatOps F]
variable (m : (ℓ : Loc nD τ sig) → Buf (Elt F) ℓ)

/-- The point's coordinates and every window's block index, decided over the 32 points. -/
theorem point_facts : ∀ t : Fin cfg0.N,
    ((grid0.coords t) 0).val = t.val / 8 ∧ ((grid0.coords t) 1).val = t.val % 8
    ∧ win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = 0 ∧ win0_4.index t (2 : Fin 3) = 0 :=
  (by decide +kernel : ∀ t : Fin grid0.N, _)

/-- The input block of point `t` is the slab of batch element `t / 8`. -/
theorem iblk0_apply (c : Dev nD) (t : Fin cfg0.N) (b : Fin 4) (hb : b.val = t.val / 8) (r : Fin 4096) (h : Fin 256) :
    iblk m c 0 t (ix3 (0 : Fin 1) r h) = m ((c : Thread nD τ).loc main_arg0) (ix3 b r h) := by
  show V m c main_arg0 (((cfg0.win 0).blk t).view.emb (ix3 (0 : Fin 1) r h)) = _
  rw [V_main_arg0]
  refine congrArg _ (funext fun a => Fin.ext ?_)
  obtain ⟨-, -, e0, e1, e2, -⟩ := point_facts t
  match a with
  | ⟨0, _⟩ => show win0_0.index t (0 : Fin 3) * 1 + 1 * 0 = b.val; omega
  | ⟨1, _⟩ => show win0_0.index t (1 : Fin 3) * 4096 + 1 * r.val = r.val; omega
  | ⟨2, _⟩ => show win0_0.index t (2 : Fin 3) * 256 + 1 * h.val = h.val; omega

/-- The query-weight block is the whole matrix. -/
theorem iblk1_apply (c : Dev nD) (t : Fin cfg0.N) (h d : Fin 256) :
    iblk m c 1 t (ix2 h d) = m ((c : Thread nD τ).loc main_arg1) (ix2 h d) := by
  show V m c main_arg1 (((cfg0.win 1).blk t).view.emb (ix2 h d)) = _
  rw [V_main_arg1]
  refine congrArg _ (funext fun a => Fin.ext ?_)
  obtain ⟨-, -, -, -, -, e0, e1, -⟩ := point_facts t
  match a with
  | ⟨0, _⟩ => show win0_1.index t (0 : Fin 2) * 256 + 1 * h.val = h.val; omega
  | ⟨1, _⟩ => show win0_1.index t (1 : Fin 2) * 256 + 1 * d.val = d.val; omega

/-- The key-weight block is the whole matrix. -/
theorem iblk2_apply (c : Dev nD) (t : Fin cfg0.N) (h d : Fin 256) :
    iblk m c 2 t (ix2 h d) = m ((c : Thread nD τ).loc main_arg2) (ix2 h d) := by
  show V m c main_arg2 (((cfg0.win 2).blk t).view.emb (ix2 h d)) = _
  rw [V_main_arg2]
  refine congrArg _ (funext fun a => Fin.ext ?_)
  obtain ⟨-, -, -, -, -, -, -, e0, e1, -⟩ := point_facts t
  match a with
  | ⟨0, _⟩ => show win0_2.index t (0 : Fin 2) * 256 + 1 * h.val = h.val; omega
  | ⟨1, _⟩ => show win0_2.index t (1 : Fin 2) * 256 + 1 * d.val = d.val; omega

/-- What the host writes before the region: the value weights in the narrower format. -/
theorem V_main_v0 (c : Dev nD) :
    (V m c main_v0 : S256x256.Idx → Elt F .bf16) = truncf .bf16 (m ((c : Thread nD τ).loc main_arg3)) bitsLt_bf16_f32 := by
  dsimp only [Gen.V, Gen.hostOps0]
  after_results

/-- The value-weight block is that whole matrix. -/
theorem iblk3_apply (c : Dev nD) (t : Fin cfg0.N) (h d : Fin 256) :
    iblk m c 3 t (ix2 h d)
      = (truncf .bf16 (m ((c : Thread nD τ).loc main_arg3)) bitsLt_bf16_f32 : S256x256.Idx → Elt F .bf16) (ix2 h d) := by
  show V m c main_v0 (((cfg0.win 3).blk t).view.emb (ix2 h d)) = _
  rw [V_main_v0]
  refine congrArg _ (funext fun a => Fin.ext ?_)
  obtain ⟨-, -, -, -, -, -, -, -, -, e0, e1, -⟩ := point_facts t
  match a with
  | ⟨0, _⟩ => show win0_3.index t (0 : Fin 2) * 256 + 1 * h.val = h.val; omega
  | ⟨1, _⟩ => show win0_3.index t (1 : Fin 2) * 256 + 1 * d.val = d.val; omega

/-- Row `e` of the tile of point `t` is row `k` of the block, where `k = 512·(t % 8) + e`. -/
theorem tile_apply (t : Fin cfg0.N) (x0 : Vec F S1x4096x256 .f32) (e : Fin 512) (k : Fin 4096)
    (hk : k.val = 512 * (t.val % 8) + e.val) (h : Fin 256) :
    tile (grid0.coords t) x0 (ix3 (0 : Fin 1) e h) = x0 (ix3 (0 : Fin 1) k h) := by
  unfold tile
  show x0 ((Rect.unit (s := S1x4096x256) (k0_off1 (grid0.coords t)) S1x512x256.size (k0_off1_inb (grid0.coords t))).toLoadRect.idx (ix3 (0 : Fin 1) e h)) = _
  refine congrArg x0 (funext fun a => Fin.ext ?_)
  obtain ⟨-, e1, -⟩ := point_facts t
  have ho := k0_off1_eq (grid0.coords t)
  match a with
  | ⟨0, _⟩ => show k0_off1 (grid0.coords t) 0 + 1 * 0 = 0; rw [ho]; rfl
  | ⟨1, _⟩ =>
    show k0_off1 (grid0.coords t) 1 + 1 * e.val = k.val
    rw [ho, hk]
    show 512 * ((grid0.coords t) 1).val + 1 * e.val = _
    omega
  | ⟨2, _⟩ => show k0_off1 (grid0.coords t) 2 + 1 * h.val = h.val; rw [ho]; show 0 + 1 * h.val = h.val; omega

end Cert.KernelIdeal.Grid

end
-- ==== Proof.Invariant.lean ====
/-
  The four carried buffers after every grid point.

  With real inputs `X` (per batch element), `Wq`, `Wk`, `Wv`: after grid point `n` (batch element `n / 8`, key tile
  `n % 8`) the query buffer holds the query projection of the batch element, and the running maximum, sum and
  weighted sum are, row by row, a real shift `μ` and the sums over the first `n % 8 + 1` key tiles of
  `exp (score - μ)` and `exp (score - μ) · value`.  By induction on the point: the first tile of a batch element
  starts from the seeds, every later tile from what the tile before left.  At the last tile the output block is the
  quotient of the two sums.
-/
import proofs.«125697_j82205674045992_2_alg».proof.Proof.Step
import proofs.«125697_j82205674045992_2_alg».proof.Proof.Grid
import proofs.«125697_j82205674045992_2_alg».proof.Proof.Gen.KernelIdeal.Frame

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Pieces Cert.KernelIdeal.Payloads Cert.KernelIdeal.Step
open Cert.KernelIdeal.Grid Cert.Attention

variable (m : (ℓ : Loc nD τ sig) → Buf (Elt Ideal) ℓ)

/-- The four float arguments hold the real arrays `X`, `Wq`, `Wk`, `Wv` on core `c`. -/
structure RealArgs (c : Dev nD) (X : Fin 4 → Fin 4096 → Fin 256 → ℝ) (Wq Wk Wv : Fin 256 → Fin 256 → ℝ) : Prop where
  hx : ∀ (b : Fin 4) (r : Fin 4096) (h : Fin 256),
    (m ((c : Thread nD τ).loc main_arg0) : S4x4096x256.Idx → EReal) (ix3 b r h) = ((X b r h : ℝ) : EReal)
  hq : ∀ h d : Fin 256, (m ((c : Thread nD τ).loc main_arg1) : S256x256.Idx → EReal) (ix2 h d) = ((Wq h d : ℝ) : EReal)
  hk : ∀ h d : Fin 256, (m ((c : Thread nD τ).loc main_arg2) : S256x256.Idx → EReal) (ix2 h d) = ((Wk h d : ℝ) : EReal)
  hv : ∀ h d : Fin 256, (m ((c : Thread nD τ).loc main_arg3) : S256x256.Idx → EReal) (ix2 h d) = ((Wv h d : ℝ) : EReal)

/-- The score of query row `r` of batch element `b` against key `e` of tile `j`. -/
def tileScore (X : Fin 4 → Fin 4096 → Fin 256 → ℝ) (Wq Wk : Fin 256 → Fin 256 → ℝ) (b : Fin 4) (r : Fin 4096) (j : ℕ)
    (e : Fin 512) : ℝ := score (proj (X b) Wq) (proj (X b) Wk) r (key j e)

/-- The value of key `e` of tile `j` of batch element `b`, feature `d`. -/
def tileValue (X : Fin 4 → Fin 4096 → Fin 256 → ℝ) (Wv : Fin 256 → Fin 256 → ℝ) (b : Fin 4) (j : ℕ) (e : Fin 512)
    (d : Fin 256) : ℝ := proj (X b) Wv (key j e) d

/-! ## What a point leaves in the carried buffers, in terms of what it reads -/

set_option maxHeartbeats 1600000 in
/-- A first tile: the query projection, and the three running values updated from the seeds. -/
theorem scratch_first (c : Dev nD) (t : Fin cfg0.N) (h0 : t.val % 8 = 0) :
    (outsAt0 m c t.val t.isLt).2.1 = newQ (F := Ideal) (iblk m c 0 t) (iblk m c 1 t)
    ∧ (outsAt0 m c t.val t.isLt).2.2.1
        = newM (F := Ideal) (grid0.coords t) (iblk m c 0 t) (iblk m c 2 t) (newQ (F := Ideal) (iblk m c 0 t) (iblk m c 1 t)) (seedM (F := Ideal))
    ∧ (outsAt0 m c t.val t.isLt).2.2.2.1
        = newL (F := Ideal) (grid0.coords t) (iblk m c 0 t) (iblk m c 2 t) (newQ (F := Ideal) (iblk m c 0 t) (iblk m c 1 t)) (seedM (F := Ideal)) (seedL (F := Ideal))
    ∧ (outsAt0 m c t.val t.isLt).2.2.2.2
        = newA (F := Ideal) (grid0.coords t) (iblk m c 0 t) (iblk m c 2 t) (iblk m c 3 t) (newQ (F := Ideal) (iblk m c 0 t) (iblk m c 1 t)) (seedM (F := Ideal)) (seedA (F := Ideal)) := by
  have h1 : ¬t.val % 8 = 7 := by omega
  rw [outsAt0_A m c t h0 h1]
  dsimp only
  rw [firstQ, firstM, firstL, firstA]
  exact ⟨rfl, rfl, rfl, rfl⟩

set_option maxHeartbeats 1600000 in
/-- A later tile: the queries kept, the three running values updated from what the point before left. -/
theorem scratch_next (c : Dev nD) (t : Fin cfg0.N) (h0 : ¬t.val % 8 = 0) :
    (outsAt0 m c t.val t.isLt).2.1 = (outsAt0 m c (t.val - 1) (Nat.lt_of_le_of_lt (Nat.sub_le _ _) t.isLt)).2.1
    ∧ (outsAt0 m c t.val t.isLt).2.2.1
        = newM (F := Ideal) (grid0.coords t) (iblk m c 0 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2.1
        = newL (F := Ideal) (grid0.coords t) (iblk m c 0 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1
    ∧ (outsAt0 m c t.val t.isLt).2.2.2.2
        = newA (F := Ideal) (grid0.coords t) (iblk m c 0 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2 := by
  by_cases h1 : t.val % 8 = 7
  · rw [outsAt0_C m c t h0 h1]
    dsimp only
    rw [lastQ, lastM, lastL, lastA]
    exact ⟨rfl, rfl, rfl, rfl⟩
  · rw [outsAt0_B m c t h0 h1]
    dsimp only
    rw [midQ, midM, midL, midA]
    exact ⟨rfl, rfl, rfl, rfl⟩

set_option maxHeartbeats 1600000 in
/-- At a last tile the output block is the quotient of the weighted sum by the sum the point leaves. -/
theorem out_at_last (c : Dev nD) (t : Fin cfg0.N) (h0 : ¬t.val % 8 = 0) (h1 : t.val % 8 = 7) :
    (outsAt0 m c t.val t.isLt).1
      = outOf (F := Ideal) (outsAt0 m c t.val t.isLt).2.2.2.2 (outsAt0 m c t.val t.isLt).2.2.2.1 := by
  rw [outsAt0_C m c t h0 h1]
  dsimp only
  rw [lastOut, lastA, lastL]

/-! ## One tile, read over the reals -/

set_option maxHeartbeats 1600000 in
/-- Tile `j = t % 8` of batch element `b = t / 8` takes partial sums over `j` tiles to partial sums over `j + 1`. -/
theorem tile_reads (c : Dev nD) (X : Fin 4 → Fin 4096 → Fin 256 → ℝ) (Wq Wk Wv : Fin 256 → Fin 256 → ℝ)
    (hA : RealArgs m c X Wq Wk Wv) (t : Fin cfg0.N) (j : ℕ) (hj : j = t.val % 8) (b : Fin 4) (hb : b.val = t.val / 8)
    {qs : FVec Ideal S4096x256 .f32} {ms ls : FVec Ideal S4096x1 .f32} {acs : FVec Ideal S4096x256 .f32}
    (hR : Reads qs ms ls acs (proj (X b) Wq) (tileScore X Wq Wk b) (tileValue X Wv b) j) :
    Reads qs (newM (F := Ideal) (grid0.coords t) (iblk m c 0 t) (iblk m c 2 t) qs ms)
      (newL (F := Ideal) (grid0.coords t) (iblk m c 0 t) (iblk m c 2 t) qs ms ls)
      (newA (F := Ideal) (grid0.coords t) (iblk m c 0 t) (iblk m c 2 t) (iblk m c 3 t) qs ms acs)
      (proj (X b) Wq) (tileScore X Wq Wk b) (tileValue X Wv b) (j + 1) := by
  have hj8 : j < 8 := by omega
  refine hR.step (tile (grid0.coords t) (iblk m c 0 t)) (iblk m c 2 t) (iblk m c 3 t)
    (fun e h => X b (key j e) h) Wk Wv (fun e h => ?_) (fun h d => ?_) (fun h d => ?_) (fun r e => rfl) (fun e d => rfl)
  · exact (tile_apply t (iblk m c 0 t) e (key j e) (by rw [key_val j hj8 e, hj]) h).trans
      ((iblk0_apply m c t b hb (key j e) h).trans (hA.hx b (key j e) h))
  · exact (iblk2_apply m c t h d).trans (hA.hk h d)
  · exact (iblk3_apply m c t h d).trans (hA.hv h d)

set_option maxHeartbeats 1600000 in
/-- The query projection a first tile stores is the real projection. -/
theorem newQ_real (c : Dev nD) (X : Fin 4 → Fin 4096 → Fin 256 → ℝ) (Wq Wk Wv : Fin 256 → Fin 256 → ℝ)
    (hA : RealArgs m c X Wq Wk Wv) (t : Fin cfg0.N) (b : Fin 4) (hb : b.val = t.val / 8) (r : Fin 4096) (d : Fin 256) :
    (newQ (F := Ideal) (iblk m c 0 t) (iblk m c 1 t) : FVec Ideal S4096x256 .f32) (ix2 r d) = ((proj (X b) Wq r d : ℝ) : EReal) := by
  refine (pay5_apply (iblk m c 0 t) (iblk m c 1 t) r d).trans ?_
  unfold proj
  refine (Finset.sum_congr rfl fun h _ => ?_).trans (coe_sum Finset.univ fun h => X b r h * Wq h d)
  rw [iblk0_apply m c t b hb r h, hA.hx, iblk1_apply m c t h d, hA.hq, EReal.coe_mul]

/-! ## Every point -/

set_option maxHeartbeats 1600000 in
/-- After point `n` the carried buffers read as the partial sums over the first `n % 8 + 1` tiles. -/
theorem reads_at (c : Dev nD) (X : Fin 4 → Fin 4096 → Fin 256 → ℝ) (Wq Wk Wv : Fin 256 → Fin 256 → ℝ)
    (hA : RealArgs m c X Wq Wk Wv) (n : ℕ) (hn : n < cfg0.N) (b : Fin 4) (hb : b.val = n / 8) :
    Reads (outsAt0 m c n hn).2.1 (outsAt0 m c n hn).2.2.1 (outsAt0 m c n hn).2.2.2.1 (outsAt0 m c n hn).2.2.2.2
      (proj (X b) Wq) (tileScore X Wq Wk b) (tileValue X Wv b) (n % 8 + 1) := by
  have hN : cfg0.N = 32 := N_0
  induction n generalizing b with
  | zero =>
    obtain ⟨eQ, eM, eL, eA⟩ := scratch_first m c ⟨0, hn⟩ rfl
    rw [eQ, eM, eL, eA]
    exact tile_reads m c X Wq Wk Wv hA ⟨0, hn⟩ 0 rfl b hb
      (Reads.seed _ _ _ _ (newQ_real m c X Wq Wk Wv hA ⟨0, hn⟩ b hb))
  | succ n ih =>
    by_cases h0 : (n + 1) % 8 = 0
    · obtain ⟨eQ, eM, eL, eA⟩ := scratch_first m c ⟨n + 1, hn⟩ h0
      rw [eQ, eM, eL, eA, h0]
      exact tile_reads m c X Wq Wk Wv hA ⟨n + 1, hn⟩ 0 h0.symm b hb
        (Reads.seed _ _ _ _ (newQ_real m c X Wq Wk Wv hA ⟨n + 1, hn⟩ b hb))
    · obtain ⟨eQ, eM, eL, eA⟩ := scratch_next m c ⟨n + 1, hn⟩ h0
      have hj : (n + 1) % 8 = n % 8 + 1 := by omega
      have hb' : b.val = n / 8 := by omega
      rw [eQ, eM, eL, eA, hj]
      exact tile_reads m c X Wq Wk Wv hA ⟨n + 1, hn⟩ (n % 8 + 1) hj.symm b hb (ih (Nat.lt_of_succ_lt hn) b hb')

end Cert.KernelIdeal.Inv

end
-- ==== Proof.Final.lean ====
/-
  The kernel's result array.

  The output is written back at the last key tile of each batch element.  There the output block is the weighted
  sum divided by the sum, both taken over all eight tiles under one real shift; eight tiles of 512 keys are all 4096
  keys, and a softmax-weighted mean does not depend on the shift, so the block holds attention of that batch
  element.  The blocks written back at the four last tiles tile the whole `[4, 4096, 256]` array.
-/
import proofs.«125697_j82205674045992_2_alg».proof.Proof.Invariant
import proofs.«125697_j82205674045992_2_alg».proof.Proof.Gen.KernelIdeal.Value
import proofs.«125697_j82205674045992_2_alg».proof.Proof.Gen.KernelIdeal.Points
import proofs.«125697_j82205674045992_2_alg».proof.Proof.Gen.KernelIdeal.Launch

noncomputable section

open Idealize.ShloMosaic Idealize.ShloMosaic.TcCoe Idealize.SL.Sem Idealize.ShloMosaic.ValueIdx

namespace Cert.KernelIdeal.Final

open Cert.KernelIdeal Cert.KernelIdeal.Gen Cert.KernelIdeal.Pieces Cert.KernelIdeal.Payloads Cert.KernelIdeal.Step
open Cert.KernelIdeal.Grid Cert.Attention Finset

variable (m : (ℓ : Loc nD τ sig) → Buf (Elt Ideal) ℓ)

/-- The whole result array: entry `(b, r, d)` is attention of batch element `b` at row `r`, feature `d`. -/
def G (X : Fin 4 → Fin 4096 → Fin 256 → ℝ) (Wq Wk Wv : Fin 256 → Fin 256 → ℝ) : S4x4096x256.Idx → EReal :=
  fun i => ((Cert.Attention.attention (X ⟨(i 0).val, (i 0).isLt⟩) Wq Wk Wv ⟨(i 1).val, (i 1).isLt⟩
    ⟨(i 2).val, (i 2).isLt⟩ : ℝ) : EReal)

theorem G_apply (X : Fin 4 → Fin 4096 → Fin 256 → ℝ) (Wq Wk Wv : Fin 256 → Fin 256 → ℝ)
    (b : Fin 4) (r : Fin 4096) (d : Fin 256) :
    G X Wq Wk Wv (ix3 b r d) = ((Cert.Attention.attention (X b) Wq Wk Wv r d : ℝ) : EReal) := rfl

/-- Over all eight tiles and under any real shift, the weighted sum over the sum is attention. -/
theorem quotient_eq_attention (X : Fin 4 → Fin 4096 → Fin 256 → ℝ) (Wq Wk Wv : Fin 256 → Fin 256 → ℝ)
    (b : Fin 4) (r : Fin 4096) (d : Fin 256) (μ : ℝ) :
    (∑ j ∈ range 8, ∑ e : Fin 512, Real.exp (Inv.tileScore X Wq Wk b r j e - μ) * Inv.tileValue X Wv b j e d)
        / (∑ j ∈ range 8, ∑ e : Fin 512, Real.exp (Inv.tileScore X Wq Wk b r j e - μ))
      = attention (X b) Wq Wk Wv r d := by
  unfold Inv.tileScore Inv.tileValue
  rw [sum_tiles (fun k => Real.exp (score (proj (X b) Wq) (proj (X b) Wk) r k - μ) * proj (X b) Wv k d),
    sum_tiles (fun k => Real.exp (score (proj (X b) Wq) (proj (X b) Wk) r k - μ))]
  exact shift_invariant Finset.univ (score (proj (X b) Wq) (proj (X b) Wk) r) (fun k => proj (X b) Wv k d) μ

/-- What the last tile of batch element `b` leaves in the output block: attention of `b`. -/
theorem out_last_apply (c : Dev nD) (X : Fin 4 → Fin 4096 → Fin 256 → ℝ) (Wq Wk Wv : Fin 256 → Fin 256 → ℝ)
    (hA : Inv.RealArgs m c X Wq Wk Wv) (t : Fin cfg0.N) (h1 : t.val % 8 = 7) (b : Fin 4) (hb : b.val = t.val / 8)
    (r : Fin 4096) (d : Fin 256) :
    (outsAt0 m c t.val t.isLt).1 (ix3 (0 : Fin 1) r d) = ((attention (X b) Wq Wk Wv r d : ℝ) : EReal) := by
  have h0 : ¬t.val % 8 = 0 := by omega
  have h8 : t.val % 8 + 1 = 8 := by omega
  have hR := Inv.reads_at m c X Wq Wk Wv hA t.val t.isLt b hb
  rw [h8] at hR
  obtain ⟨μ, -, hl, ha⟩ := hR.rest r
  have hpos : (0 : ℝ) < ∑ j ∈ range 8, ∑ e : Fin 512, Real.exp (Inv.tileScore X Wq Wk b r j e - μ) :=
    Finset.sum_pos (fun j _ => Finset.sum_pos (fun e _ => Real.exp_pos _) ⟨0, Finset.mem_univ _⟩)
      ⟨0, Finset.mem_range.2 (by norm_num)⟩
  rw [Inv.out_at_last m c t h0 h1]
  unfold outOf
  rw [pay4_apply, ha d, hl, Ideal.div_coe hpos.ne', ← EReal.coe_mul, ← div_eq_mul_one_div,
    quotient_eq_attention]

/-- What a last tile writes back is its block of `G`. -/
theorem flushed4_eq (c : Dev nD) (X : Fin 4 → Fin 4096 → Fin 256 → ℝ) (Wq Wk Wv : Fin 256 → Fin 256 → ℝ)
    (hA : Inv.RealArgs m c X Wq Wk Wv) (t : Fin cfg0.N) (hf : (cfg0.win 4).flush t = true) :
    (dats m 0 c).flushed 4 t = ((cfg0.win 4).blk t).view.read (Elt Ideal) (G X Wq Wk Wv) := by
  have h1 : t.val % 8 = 7 := (flush0_4 t).mp hf
  have hN : cfg0.N = 32 := N_0
  have ht : t.val < cfg0.N := t.isLt
  obtain ⟨-, -, -, -, -, -, -, -, -, -, -, e0, e1, e2⟩ := point_facts t
  show (cfg0.win 4).cut (grid0.coords t) ((dats m 0 c).after 4 t) = _
  rw [after0_4]
  funext j
  have hj0 : (j 0).val < 1 := (j 0).isLt
  have hj1 : (j 1).val < 4096 := (j 1).isLt
  have hj2 : (j 2).val < 256 := (j 2).isLt
  have el : (cfg0.win 4).xinj (grid0.coords t) j
      = ix3 (0 : Fin 1) (⟨(j 1).val, hj1⟩ : Fin 4096) (⟨(j 2).val, hj2⟩ : Fin 256) := funext fun a => Fin.ext (by
    match a with
    | ⟨0, _⟩ => show (j 0).val = 0; omega
    | ⟨1, _⟩ => rfl
    | ⟨2, _⟩ => rfl)
  have er : ((cfg0.win 4).blk t).view.emb j
      = ix3 (⟨t.val / 8, by omega⟩ : Fin 4) (⟨(j 1).val, hj1⟩ : Fin 4096) (⟨(j 2).val, hj2⟩ : Fin 256) :=
    funext fun a => Fin.ext (by
      match a with
      | ⟨0, _⟩ => show win0_4.index t (0 : Fin 3) * 1 + 1 * (j 0).val = t.val / 8; omega
      | ⟨1, _⟩ => show win0_4.index t (1 : Fin 3) * 4096 + 1 * (j 1).val = (j 1).val; omega
      | ⟨2, _⟩ => show win0_4.index t (2 : Fin 3) * 256 + 1 * (j 2).val = (j 2).val; omega)
  show (outsAt0 m c t.val t.isLt).1 ((cfg0.win 4).xinj (grid0.coords t) j)
    = G X Wq Wk Wv (((cfg0.win 4).blk t).view.emb j)
  rw [el, er, G_apply]
  exact out_last_apply m c X Wq Wk Wv hA t h1 _ rfl _ _

/-- An index of the array is in point `t`'s block iff each coordinate is in the block's range on its axis. -/
theorem mem_blk4 (t : Fin cfg0.N) (i : S4x4096x256.Idx) :
    i ∈ ((cfg0.win 4).blk t).view.set ↔ ∀ a : Fin 3, win0_4.index t a * S1x4096x256.size a ≤ (i a).val
      ∧ (i a).val < win0_4.index t a * S1x4096x256.size a + S1x4096x256.size a := by
  show i ∈ ((View.whole main_v1).slice (win0_4.rect t)).set ↔ _
  rw [View.set_slice_whole, Rect.mem_set_unit]
  exact Iff.rfl

/-- Every index of the array is in the block some last tile writes back: that of its batch element. -/
theorem cover4 (i : S4x4096x256.Idx) :
    ∃ t : Fin cfg0.N, (cfg0.win 4).flush t = true ∧ i ∈ ((cfg0.win 4).blk t).view.set := by
  have hN : cfg0.N = 32 := N_0
  have hi0 : (i 0).val < 4 := (i 0).isLt
  have hi1 : (i 1).val < 4096 := (i 1).isLt
  have hi2 : (i 2).val < 256 := (i 2).isLt
  have hlt : 8 * (i 0).val + 7 < cfg0.N := by omega
  obtain ⟨-, -, -, -, -, -, -, -, -, -, -, e0, e1, e2⟩ := point_facts ⟨8 * (i 0).val + 7, hlt⟩
  have hv : (⟨8 * (i 0).val + 7, hlt⟩ : Fin cfg0.N).val = 8 * (i 0).val + 7 := rfl
  refine ⟨⟨8 * (i 0).val + 7, hlt⟩, (flush0_4 _).mpr (by rw [hv]; omega), ?_⟩
  rw [mem_blk4]
  intro a
  match a with
  | ⟨0, _⟩ =>
    show win0_4.index ⟨8 * (i 0).val + 7, hlt⟩ (0 : Fin 3) * 1 ≤ (i 0).val
      ∧ (i 0).val < win0_4.index ⟨8 * (i 0).val + 7, hlt⟩ (0 : Fin 3) * 1 + 1
    omega
  | ⟨1, _⟩ =>
    show win0_4.index ⟨8 * (i 0).val + 7, hlt⟩ (1 : Fin 3) * 4096 ≤ (i 1).val
      ∧ (i 1).val < win0_4.index ⟨8 * (i 0).val + 7, hlt⟩ (1 : Fin 3) * 4096 + 4096
    omega
  | ⟨2, _⟩ =>
    show win0_4.index ⟨8 * (i 0).val + 7, hlt⟩ (2 : Fin 3) * 256 ≤ (i 2).val
      ∧ (i 2).val < win0_4.index ⟨8 * (i 0).val + 7, hlt⟩ (2 : Fin 3) * 256 + 256
    omega

/-- The result array after the run: attention, entry by entry. -/
theorem final (c : Dev nD) (X : Fin 4 → Fin 4096 → Fin 256 → ℝ) (Wq Wk Wv : Fin 256 → Fin 256 → ℝ)
    (hA : Inv.RealArgs m c X Wq Wk Wv) : (dats m 0 c).arrAt 4 cfg0.N = G X Wq Wk Wv :=
  (dats m 0 c).arrAt_eq_of_cover 4 (G X Wq Wk Wv) (fun t hf => flushed4_eq m c X Wq Wk Wv hA t hf) cover4

/-- The run re-posted: the result array is `G` of the real arguments, the arguments are unchanged. -/
theorem run (ρ : Dev nD → PrngReg) (X : Dev nD → Fin 4 → Fin 4096 → Fin 256 → ℝ)
    (Wq Wk Wv : Dev nD → Fin 256 → Fin 256 → ℝ)
    (hA : ∀ c, Inv.RealArgs m c (X c) (Wq c) (Wk c) (Wv c)) :
    θ_run defs (onTc (τ := τ) (main (F := Ideal))) ⟨m, fun _ => 0, ρ⟩ fun r => ∀ c : Dev nD,
      r.2.mem ((c : Thread nD τ).loc main_v1) = G (X c) (Wq c) (Wk c) (Wv c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun r h c => ⟨(h c).1.trans (final m c (X c) (Wq c) (Wk c) (Wv c) (hA c)), (h c).2⟩)
    (Value.run_blocks m ρ)

end Cert.KernelIdeal.Final

end
-- ==== Proof.lean ====
/-
  Single-head attention computed one key tile at a time equals attention computed at once.

  The kernel handles one batch element per row of its grid and walks that element's 4096 keys in 8 tiles of 512.
  It keeps, for every query row, a running maximum `m`, a running sum `l = ∑ exp (s - m)` and a running weighted sum
  `a = ∑ exp (s - m) · v` over the keys seen so far; a new tile raises the maximum to `m'`, multiplies both sums by
  `exp (m - m')` and adds the tile's terms; after the last tile it writes `a / l`.  The reference forms all scores,
  subtracts each row's maximum, exponentiates, normalises by the row's sum, and then takes the weighted sum of the
  values.

  On the extended reals, with every float input finite (the precondition), all of these numbers are real, every
  change of float format is the identity, and both programs compute, at `(b, r, d)`,

      (∑ₖ exp (s k) · v k d) / (∑ₖ exp (s k)),   s k = (q_r · k_k) / 16,

  the softmax-weighted mean of the values, which does not depend on the real number subtracted from the scores
  (`Cert.Attention.shift_invariant`): the kernel subtracts its last running maximum — whatever finite value the
  starting maximum had —, the reference the true row maximum.  `1/√256` is `1/16`, the kernel's scale.

  The three frame claims are the generated frame runs (the reference's is its generated run with the result
  dropped); the idealization rewrote nothing, so `preserves` is trivial; the value claim sets the kernel's run, read
  through the invariant over its grid points, beside the reference's run read stage by stage.
-/
import proofs.«125697_j82205674045992_2_alg».proof.Defs
import proofs.«125697_j82205674045992_2_alg».proof.Proof.Gen.Kernel
import proofs.«125697_j82205674045992_2_alg».proof.Proof.Gen.Kernel.Skeleton
import proofs.«125697_j82205674045992_2_alg».proof.Proof.Gen.Kernel.Launch
import proofs.«125697_j82205674045992_2_alg».proof.Proof.Gen.Kernel.Points
import proofs.«125697_j82205674045992_2_alg».proof.Proof.Gen.Kernel.Frame
import proofs.«125697_j82205674045992_2_alg».proof.Proof.Gen.KernelIdeal
import proofs.«125697_j82205674045992_2_alg».proof.Proof.Gen.KernelIdeal.Skeleton
import proofs.«125697_j82205674045992_2_alg».proof.Proof.Gen.KernelIdeal.Launch
import proofs.«125697_j82205674045992_2_alg».proof.Proof.Gen.KernelIdeal.Points
import proofs.«125697_j82205674045992_2_alg».proof.Proof.Gen.KernelIdeal.Frame
import proofs.«125697_j82205674045992_2_alg».proof.Proof.Gen.ReferenceIdeal
import proofs.«125697_j82205674045992_2_alg».proof.Proof.Gen.KernelIdeal.Value
import proofs.«125697_j82205674045992_2_alg».proof.Proof.Gen.ReferenceIdeal.Run
import proofs.«125697_j82205674045992_2_alg».proof.Proof.Gen.ReferenceIdeal.Read
import proofs.«125697_j82205674045992_2_alg».proof.Proof.Gen.Pre_finite_inputs
import proofs.«125697_j82205674045992_2_alg».proof.Proof.Reference
import proofs.«125697_j82205674045992_2_alg».proof.Proof.Finite
import proofs.«125697_j82205674045992_2_alg».proof.Proof.Final
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments as they were. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run, with the result dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The reference's result of real arrays is the kernel's result array of the same arrays: both are attention of their
    real values, index by index. -/
theorem reference_is_G
    (a0 : (⟨Cert.ReferenceIdeal.S4x4096x256, .f32⟩ : BufTy).Contents (Elt Ideal))
    (a1 a2 a3 : (⟨Cert.ReferenceIdeal.S256x256, .f32⟩ : BufTy).Contents (Elt Ideal))
    (h0 : ∀ i, a0 i = (((a0 i : EReal).toReal : ℝ) : EReal)) (h1 : ∀ i, a1 i = (((a1 i : EReal).toReal : ℝ) : EReal))
    (h2 : ∀ i, a2 i = (((a2 i : EReal).toReal : ℝ) : EReal)) (h3 : ∀ i, a3 i = (((a3 i : EReal).toReal : ℝ) : EReal)) :
    Cert.ReferenceIdeal.Read.val_main_v19 (F := Ideal) a0 a1 a2 a3
      = Cert.KernelIdeal.Final.G (fun b r h => (a0 (ix3 b r h) : EReal).toReal) (fun h d => (a1 (ix2 h d) : EReal).toReal)
          (fun h d => (a2 (ix2 h d) : EReal).toReal) (fun h d => (a3 (ix2 h d) : EReal).toReal) := by
  funext i
  refine (congrArg (Cert.ReferenceIdeal.Read.val_main_v19 (F := Ideal) a0 a1 a2 a3) (eq_ix3 i)).trans ?_
  exact Cert.Attention.Ref.reference_eq a0 a1 a2 a3
    (fun b r h => (a0 (ix3 b r h) : EReal).toReal) (fun h d => (a1 (ix2 h d) : EReal).toReal)
    (fun h d => (a2 (ix2 h d) : EReal).toReal) (fun h d => (a3 (ix2 h d) : EReal).toReal)
    (fun b r h => h0 (ix3 b r h)) (fun h d => h1 (ix2 h d)) (fun h d => h2 (ix2 h d)) (fun h d => h3 (ix2 h d))
    (i 0) (i 1) (i 2)

/-- Both programs end with attention of the (real) inputs in their result array. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  have hre := fun c : Dev Cert.KernelIdeal.nD => Cert.Attention.Finite.toReal_of_pre _ _ _ _ _ (hpre c)
  have hA : ∀ c : Dev Cert.KernelIdeal.nD, Cert.KernelIdeal.Inv.RealArgs m c
      (fun b r h => (m ((c.tc : Thread Cert.KernelIdeal.nD Cert.KernelIdeal.τ).loc Cert.KernelIdeal.main_arg0) (ix3 b r h) : EReal).toReal)
      (fun h d => (m ((c.tc : Thread Cert.KernelIdeal.nD Cert.KernelIdeal.τ).loc Cert.KernelIdeal.main_arg1) (ix2 h d) : EReal).toReal)
      (fun h d => (m ((c.tc : Thread Cert.KernelIdeal.nD Cert.KernelIdeal.τ).loc Cert.KernelIdeal.main_arg2) (ix2 h d) : EReal).toReal)
      (fun h d => (m ((c.tc : Thread Cert.KernelIdeal.nD Cert.KernelIdeal.τ).loc Cert.KernelIdeal.main_arg3) (ix2 h d) : EReal).toReal) :=
    fun c => ⟨fun b r h => (hre c).1 (ix3 b r h), fun h d => (hre c).2.1 (ix2 h d), fun h d => (hre c).2.2.1 (ix2 h d),
      fun h d => (hre c).2.2.2 (ix2 h d)⟩
  refine ⟨_, Cert.KernelIdeal.Final.run m ρ _ _ _ _ hA, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2.1]
  exact reference_is_G _ _ _ _ (hre c).1 (hre c).2.1 (hre c).2.2.1 (hre c).2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
